-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF61B1E6#32 ⊥
  ∧ IdealRules.named_const.Statement Cert.KernelIdeal.κ "neg_big" .f32 0xFF61B1E6#32 ⊥
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S128x512 : Shape := ⟨2, ![128, 512]⟩
abbrev S128 : Shape := ⟨1, ![128]⟩
abbrev S1024x512 : Shape := ⟨2, ![1024, 512]⟩
abbrev S1024 : Shape := ⟨1, ![1024]⟩
abbrev S512x1024 : Shape := ⟨2, ![512, 1024]⟩
abbrev S128x1024 : Shape := ⟨2, ![128, 1024]⟩
abbrev S128x1 : Shape := ⟨2, ![128, 1]⟩
abbrev S1x1024 : Shape := ⟨2, ![1, 1024]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S8192x512, .f32⟩
  | .local _ .vmem, ⟨3, _⟩ => ⟨S128, .i32⟩
  | .local _ .vmem, ⟨4, _⟩ => ⟨S128, .i32⟩
  | .local _ .vmem, ⟨5, _⟩ => ⟨S8192, .i32⟩
  | .local _ .vmem, ⟨6, _⟩ => ⟨S128, .f32⟩
  | .local _ .vmem, ⟨7, _⟩ => ⟨S128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v22 : BitVec 32 := Scalar.muli arg6 c1024_i32
  v22
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v22 : BitVec 32 := Scalar.muli arg6 c1024_i32
  let v23 : BitVec 32 := v22
  let v24 : Index := Scalar.indexCast v23
  let c0_14 : Index := 0#32
  ![v24.toNat, 0]
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1024_i32 : BitVec 32 := 1024#32
  let v22 : BitVec 32 := Scalar.muli arg6 c1024_i32
  let v23 : BitVec 32 := v22
  let v57 : Index := Scalar.indexCast v23
  ![v57.toNat]
@[reducible] def k0_t2_loop : Scf.Loop 32 :=
  let c0_i32_6 : BitVec 32 := 0#32
  let c8_i32_7 : BitVec 32 := 8#32
  let v11 : BitVec 32 := Scalar.addi c0_i32_6 c8_i32_7
  let c1_i32_8 : BitVec 32 := 1#32
  ⟨c0_i32_6, v11, c1_i32_8⟩
def k0_mult2 (k0_t2 : Fin k0_t2_loop.trips) : BitVec 32 :=
  let c0_i32_6 : BitVec 32 := 0#32
  let c1_i32_8 : BitVec 32 := 1#32
  let arg6 : BitVec 32 := Scf.iv c0_i32_6 c1_i32_8 k0_t2
  let c1024_i32 : BitVec 32 := 1024#32
  let v22 : BitVec 32 := Scalar.muli arg6 c1024_i32
  v22
def k0_off3 (k0_t2 : Fin k0_t2_loop.trips) : Fin 2 → Nat :=
  let c0_i32_6 : BitVec 32 := 0#32
  let c1_i32_8 : BitVec 32 := 1#32
  let arg6 : BitVec 32 := Scf.iv c0_i32_6 c1_i32_8 k0_t2
  let c1024_i32 : BitVec 32 := 1024#32
  let v22 : BitVec 32 := Scalar.muli arg6 c1024_i32
  let v23 : BitVec 32 := v22
  let v24 : Index := Scalar.indexCast v23
  let c0_14 : Index := 0#32
  ![v24.toNat, 0]
def k0_off4 (k0_t2 : Fin k0_t2_loop.trips) : Fin 1 → Nat :=
  let c0_i32_6 : BitVec 32 := 0#32
  let c1_i32_8 : BitVec 32 := 1#32
  let arg6 : BitVec 32 := Scf.iv c0_i32_6 c1_i32_8 k0_t2
  let c1024_i32 : BitVec 32 := 1024#32
  let v22 : BitVec 32 := Scalar.muli arg6 c1024_i32
  let v23 : BitVec 32 := v22
  let v57 : Index := Scalar.indexCast v23
  ![v57.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  reduces_S128x512_S128 : S128x512.Reduces [1] S128
  inb_S128_S128_0 : ∀ a, (![0] : Fin 1 → Nat) a + S128.size a ≤ S128.size a
  h_S128 : 0 < S128.numel
  h_S1024x512 : 0 < S1024x512.numel
  reduces_S1024x512_S1024 : S1024x512.Reduces [1] S1024
  transposes_S1024x512_p1_0_S512x1024 : S1024x512.Transposes [1, 0] S512x1024
  shapeCasts_S128_S128x1 : S128.ShapeCasts S128x1
  shapeCasts_S1024_S1x1024 : S1024.ShapeCasts S1x1024
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  h_S1024 : 0 < S1024.numel
  reduces_S128x1024_S128 : S128x1024.Reduces [1] S128
  reducesTo_S8192_S_d0 : S8192.ReducesTo [0] S_
  h_S_ : 0 < S_.numel
  dot_S128x512_S512x1024_S128x1024_1_0_0_1_n_n_wf : DotDims.WF S128x512 S512x1024 S128x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S8192x512.size a
  k0_off2_inb : ∀ k0_t1 : Fin k0_t1_loop.trips, ∀ a, (k0_off2 k0_t1) a + S1024.size a ≤ S8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1024x512.size a ≤ S8192x512.size a
  k0_off4_inb : ∀ k0_t2 : Fin k0_t2_loop.trips, ∀ a, (k0_off4 k0_t2) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .i32 = 32 ∨ (Rect.block (s := S8192) S128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .i32 = 32 ∨ (Rect.block (s := S8192) S8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S8192x2 : Shape := ⟨2, ![8192, 2]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x1, .i32⟩
  | .hbm, ⟨53, _⟩ => ⟨S1x8192, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x8192, .i1⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192x8192, .i1⟩
  | .hbm, ⟨65, _⟩ => ⟨S8192x1, .f32⟩
  | .hbm, ⟨66, _⟩ => ⟨S8192x8192, .f32⟩
  | .hbm, ⟨67, _⟩ => ⟨S8192x8192, .i1⟩
  | .hbm, ⟨68, _⟩ => ⟨S8192x8192, .i1⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S_, .i1⟩
  | .hbm, ⟨80, _⟩ => ⟨S8192, .i1⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_call2_v0 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_call3_v0 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_cst_13 : Ref sig .tc := ⟨.hbm, 74, rfl⟩
abbrev main_call4_v0 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_c_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_call6_cst : Ref sig .tc := ⟨.hbm, 86, rfl⟩
abbrev main_call6_v0 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_cst_18 : Ref sig .tc := ⟨.hbm, 91, rfl⟩
abbrev main_v60 : Ref sig .tc := ⟨.hbm, 92, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  scatter_S8192x8192_S8192x2_S8192_n_01_01_1_wf : ScatterDims.WF S8192x8192 S8192x2 S8192 [] [0, 1] [0, 1] 1

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.KBody.lean ====
/-
  One grid point of the triplet-loss kernel, and the pipeline's proof data.

  The kernel handles 128 anchor rows per grid point. It reads four blocks — the anchors' 128 rows of the embedding
  matrix, the whole matrix (the keys), the anchors' 128 labels, and all labels — and writes 128 losses. The matrix and the
  label vector are each handed to it twice, through two windows; each such array's one buffer is dealt to its two windows
  as the left and the right half of the full share. Inside the point two counted loops sweep the keys 1024 at a time:
  the first carries the running maximum (hardest positive), the second the two running minima (hardest semi-hard
  negative, hardest negative). What the point stores is named here as a function of the four blocks: the final
  arithmetic applied to what the two sweeps carry out.
-/
import proofs.«120611_j52630529245412_2_alg».proof.Proof.Gen.Kernel.Launch
import proofs.«120611_j52630529245412_2_alg».proof.Proof.Gen.Kernel.Skeleton
import proofs.«120611_j52630529245412_2_alg».proof.Proof.Gen.Kernel.Points
import proofs.«120611_j52630529245412_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The region is the first thing the program runs: it finds every buffer as launched. -/
abbrev V (c : Dev nD) (b : Ref sig .tc) : Buf (Elt F) ((c : Thread nD τ).loc b) := m ((c : Thread nD τ).loc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs: fetched at that point, or — for the two
    whole-array windows, fetched at the first point only — left in place since, the block index not having moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What one grid point stores -/

/-- The one store of a point covers the whole 128-entry output block. -/
abbrev r5 : Rect S128 := Rect.unit (s := S128) ![0] S128.size inb_S128_S128_0

/-- The 128 losses a point stores, from the contents of its four input buffers: the anchors' rows and labels are
    loaded once; the first sweep over the keys carries out the hardest positive, the second — which reads it — the
    two hardest negatives; the last arithmetic turns the three into the loss. -/
def outv (c : Dev nD) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole)
    (f1 : BufTy.Contents (Elt F) arg1.view.ty) (f2 : BufTy.Contents (Elt F) arg2.view.ty)
    (f3 : BufTy.Contents (Elt F) arg3.view.ty) (f4 : BufTy.Contents (Elt F) arg4.view.ty) : FVec F S128 .f32 :=
  let v0 : BitVec 32 := Scalar.muli (BitVec.ofNat 32 (i 0).val) 128#32
  let v1 := View.readAt (Elt F) arg1.view (Rect.unit (s := S128x512) ![0, 0] S128x512.size inb_S128x512_S128x512_0_0).toLoadRect f1
  let v5 := View.readAt (Elt F) arg3.view (Rect.unit (s := S128) ![0] S128.size inb_S128_S128_0).toLoadRect f3
  let hp := st_k0_t1 (F := F) Variants.none c none i arg1 harg1 arg2 harg2 arg3 harg3 arg4 harg4 arg5 harg5 v0 v1 v5 f2 f4 k0_pay3
    (Scf.trips k0_t1_loop.lb k0_t1_loop.ub k0_t1_loop.st)
  let s2 := st_k0_t2 (F := F) Variants.none c none i arg1 harg1 arg2 harg2 arg3 harg3 arg4 harg4 arg5 harg5 v0 v1 v5 hp f2 f4 (k0_pay4, k0_pay5)
    (Scf.trips k0_t2_loop.lb k0_t2_loop.ub k0_t2_loop.st)
  k0_pay8 hp s2.1 s2.2

theorem cover5 (p0 : Vec F S128 .f32) (y : S128.Idx) :
    ∃ pc ∈ ([⟨r5, p0⟩] : List (View.Piece (Elt F) S128 .f32)), y ∈ pc.1.set :=
  View.cover_of_tiled [⟨r5, p0⟩] S128.size (by rfl) y

/-! ## The body's triple -/

set_option maxHeartbeats 4000000 in
/-- The kernel body on whole staging buffers — the four inputs' at any contents, the output's at anything — runs to
    the end leaving the inputs' as they were and the output's holding the point's losses: three loads, the two sweeps
    through their invariants, one more load (of the output block, unused) and the store. -/
theorem sound_kernel (c : Dev nD) (E : Set ℕ) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole)
    (f1 : BufTy.Contents (Elt F) arg1.view.ty) (f2 : BufTy.Contents (Elt F) arg2.view.ty)
    (f3 : BufTy.Contents (Elt F) arg3.view.ty) (f4 : BufTy.Contents (Elt F) arg4.view.ty) (K : PUnit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (∃ d, owns (c : Thread nD τ) arg5 fullShare d)
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (arg4.view.loc (c : Thread nD τ) ↦[arg4.view.set]{fullShare} f4)
            ∗ owns (c : Thread nD τ) arg5 fullShare
                (View.canon [⟨r5, outv (F := F) c i arg1 harg1 arg2 harg2 arg3 harg3 arg4 harg4 arg5 harg5 f1 f2 f3 f4⟩])) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  unfold owns
  iintro ⟨H1, H2, H3, H4, ⟨%d5, %f5, -, H5⟩, Hk⟩
  sl_exec
  sl_step
  iapply Hk
  isplitl [H1]; · iexact H1
  isplitl [H2]; · iexact H2
  isplitl [H3]; · iexact H3
  isplitl [H4]; · iexact H4
  iexists _; isplitr
  swap; · iexact H5
  ipureintro
  exact View.read_writes_eq_canon _ _ _ (cover5 _)

end Cert.Kernel.Hand

end
-- ==== Proof.KData.lean ====
/-
  The pipeline's proof data for the triplet-loss kernel, and the body obligation at every grid point.

  After the body at point t each input window's staging buffer still holds its block, and the output window's holds the
  point's 128 losses (the function of the four input buffers' contents named with the body's triple). The arrays the
  windows read twice are held by halves; the output's at the full share. The region's invariant is the class's: the
  scoped buffers no window stages and the generator register, untouched.
-/
import proofs.«120611_j52630529245412_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers the body is called with at point `t` are whole buffers. -/
abbrev hst0 (t : Fin cfg0.N) : (win0_0.stage (cfg0.slots t 0)).IsWhole := hstage0_0 ((cfg0.slots t 0).cast nbuf0_0)
abbrev hst1 (t : Fin cfg0.N) : (win0_1.stage (cfg0.slots t 1)).IsWhole := hstage0_1 ((cfg0.slots t 1).cast nbuf0_1)
abbrev hst2 (t : Fin cfg0.N) : (win0_2.stage (cfg0.slots t 2)).IsWhole := hstage0_2 ((cfg0.slots t 2).cast nbuf0_2)
abbrev hst3 (t : Fin cfg0.N) : (win0_3.stage (cfg0.slots t 3)).IsWhole := hstage0_3 ((cfg0.slots t 3).cast nbuf0_3)
abbrev hst4 (t : Fin cfg0.N) : (win0_4.stage (cfg0.slots t 4)).IsWhole := hstage0_4 ((cfg0.slots t 4).cast nbuf0_4)

/-- The losses point `t` stores, from the four blocks it reads (each block as the contents of a whole buffer). -/
def lossBlock (c : Dev nD) (t : Fin cfg0.N) : Vec F S128 .f32 :=
  View.canon [⟨r5, outv (F := F) c (grid0.coords t)
    (win0_0.stage (cfg0.slots t 0)) (hst0 t) (win0_1.stage (cfg0.slots t 1)) (hst1 t)
    (win0_2.stage (cfg0.slots t 2)) (hst2 t) (win0_3.stage (cfg0.slots t 3)) (hst3 t)
    (win0_4.stage (cfg0.slots t 4)) (hst4 t)
    ((hst0 t).unread (iblk m c 0 t)) ((hst1 t).unread (iblk m c 1 t))
    ((hst2 t).unread (iblk m c 2 t)) ((hst3 t).unread (iblk m c 3 t))⟩]

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossBlock m c t
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = lossBlock m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: each input's staging buffer holds its block, so its contents are the block's unread image;
    the body's triple applies at those contents; the invariant and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, H4⟩⟩
  obtain rfl := (hst0 t).eq_unread hf0
  obtain rfl := (hst1 t).eq_unread hf1
  obtain rfl := (hst2 t).eq_unread hf2
  obtain rfl := (hst3 t).eq_unread hf3
  iapply (sound_kernel (F := F) c Set.univ (grid0.coords t) _ (hst0 t) _ (hst1 t) _ (hst2 t) _ (hst3 t) _ (hst4 t) _ _ _ _ _)
  isplitl [H0]; · iexact H0
  isplitl [H1]; · iexact H1
  isplitl [H2]; · iexact H2
  isplitl [H3]; · iexact H3
  isplitl [H4]; · iexists _; unfold owns; iexact H4
  iintro ⟨H0, H1, H2, H3, H4⟩
  isplitl [HΦ]; · iexact HΦ
  isplitl [Ho]; · iexact Ho
  isplitl [H0]; · iexists _; isplitr; · ipureintro; exact (hst0 t).read_unread _
                  iexact H0
  isplitl [H1]; · iexists _; isplitr; · ipureintro; exact (hst1 t).read_unread _
                  iexact H1
  isplitl [H2]; · iexists _; isplitr; · ipureintro; exact (hst2 t).read_unread _
                  iexact H2
  isplitl [H3]; · iexists _; isplitr; · ipureintro; exact (hst3 t).read_unread _
                  iexact H3
  unfold lossBlock owns
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The run of the triplet-loss program: the region, then the mean over the 8192 losses.

  @main is the kernel region followed by four host operations (a zero, the sum of the losses, the constant 8192, the
  quotient). The region is entered from every unscoped buffer as launched; the embedding matrix and the label vector,
  each read through two windows, are dealt to their windows by halves on entry and made whole again on exit; the host
  operations then run within all unscoped buffers, the losses' array at what the region wrote. Every weakly fair
  execution terminates; the two argument arrays end as launched, and the result buffer ends at the host operations'
  term of the losses' array.
-/
import proofs.«120611_j52630529245412_2_alg».proof.Proof.KData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- Core `c`'s buffers at launch, as a valuation. -/
abbrev V₀ (c : Dev nD) : Valuation τ sig (Elt F) := fun b => (s₀ m ρ).mem ((c : Dev nD), b)

/-- The valuation at the region's exit: the losses' array at what the write-backs left, everything else as launched. -/
def V₁ (c : Dev nD) : Valuation τ sig (Elt F) :=
  Function.update (V₀ m ρ c) (Proc.devRef .tc main_v0) ((dats m 0 c).arrAt 4 cfg0.N)

/-- What rides beside the buffers: the generator register at some state and the core owing nothing. -/
abbrev Pr (c : Dev nD) : sProp 𝕄 := iprop(∃ r, prngReg c r)
abbrev Ow (c : Dev nD) : sProp 𝕄 := iprop(∃ W, owes (c : Thread nD τ) (0 : CellTallies nD τ sig Unit) W)

/-- The buffers behind the windows' arrays, each whole at the full share, ARE the windows' arrays at their shares: the
    matrix's and the labels' buffers each as a left and a right half, the losses' whole. -/
theorem arrays_iff (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      ⊣⊢ (dats m 0 c).arrays (fun w => G (Pipeline.arrRef spec0 w)) := by
  unfold Pipeline.arrBufs Dat.arrays
  rw [bigSep_W0, bigSep_eq_bigSepL_of_eq [main_arg0, main_arg1, main_v0] (by decide) (by decide)]
  simp only [bigSepL_cons]
  rw [(arr_whole0 0).set_eq_univ, (arr_whole0 2).set_eq_univ, (arr_whole0 4).set_eq_univ]
  show iprop((((c : Thread nD τ).loc main_arg0) ↦{fullShare} G main_arg0) ∗ (((c : Thread nD τ).loc main_arg1) ↦{fullShare} G main_arg1)
        ∗ (((c : Thread nD τ).loc main_v0) ↦{fullShare} G main_v0) ∗ bigSepL [] _)
      ⊣⊢ iprop((((c : Thread nD τ).loc main_arg0) ↦{fullShare.left} G main_arg0) ∗ (((c : Thread nD τ).loc main_arg0) ↦{fullShare.right} G main_arg0)
        ∗ (((c : Thread nD τ).loc main_arg1) ↦{fullShare.left} G main_arg1) ∗ (((c : Thread nD τ).loc main_arg1) ↦{fullShare.right} G main_arg1)
        ∗ (((c : Thread nD τ).loc main_v0) ↦{fullShare} G main_v0))
  refine ⟨?_, ?_⟩
  · iintro ⟨H0, H1, H2, -⟩
    ihave H0' := (pointsTo_share (PosShare.mem_left_op_right fullShare)).1 $$ H0
    icases H0' with ⟨H0a, H0b⟩
    ihave H1' := (pointsTo_share (PosShare.mem_left_op_right fullShare)).1 $$ H1
    icases H1' with ⟨H1a, H1b⟩
    isplitl [H0a]; · iexact H0a
    isplitl [H0b]; · iexact H0b
    isplitl [H1a]; · iexact H1a
    isplitl [H1b]; · iexact H1b
    iexact H2
  · iintro ⟨H0a, H0b, H1a, H1b, H2⟩
    isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    isplitl [H2]; · iexact H2
    unfold bigSepL; iempintro

/-- The exit valuation read at a TensorCore reference. -/
abbrev G₁ (c : Dev nD) (b : Ref sig .tc) : Buf (Elt F) ((c : Thread nD τ).loc b) := V₁ m ρ c b

theorem V₁_ne (c : Dev nD) (b : Ref sig .tc) (h : b ≠ main_v0) : G₁ m ρ c b = V m c b := by
  unfold G₁ V₁
  exact Function.update_of_ne (StableHlo.devRef_ne_of_ne h) _ _

theorem V₁_v0 (c : Dev nD) : G₁ m ρ c main_v0 = (dats m 0 c).arrAt 4 cfg0.N := by
  unfold G₁ V₁
  exact Function.update_self _ _ _

/-- After the last write-back every window's array holds the exit valuation: an input's array was never written, the
    losses' holds what the write-backs left. -/
theorem exit_arr (c : Dev nD) (w : Fin cfg0.W) : (dats m 0 c).arrAt w cfg0.N = G₁ m ρ c (Pipeline.arrRef spec0 w) := by
  match w with
  | ⟨0, _⟩ => exact ((dats m 0 c).arrAt_in 0 rfl _).trans (V₁_ne m ρ c main_arg0 (by decide)).symm
  | ⟨1, _⟩ => exact ((dats m 0 c).arrAt_in 1 rfl _).trans (V₁_ne m ρ c main_arg0 (by decide)).symm
  | ⟨2, _⟩ => exact ((dats m 0 c).arrAt_in 2 rfl _).trans (V₁_ne m ρ c main_arg1 (by decide)).symm
  | ⟨3, _⟩ => exact ((dats m 0 c).arrAt_in 3 rfl _).trans (V₁_ne m ρ c main_arg1 (by decide)).symm
  | ⟨4, _⟩ => exact (V₁_v0 m ρ c).symm

/-- The buffers that bypass the region hold at the exit what they held at the entry. -/
theorem rest_eq (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (G₁ m ρ c) := by
  rw [unscopedRest0_eq, unscopedRest0_eq, V₁_ne m ρ c main_cst (by decide), V₁_ne m ρ c main_v1 (by decide),
    V₁_ne m ρ c main_cst_0 (by decide), V₁_ne m ρ c main_v2 (by decide)]

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m ρ c) ∗ Pr c ∗ Ow c)
  post c := iprop(StableHlo.held (c : Thread nD τ) (Pipeline.ucRefs τ sig) (V₁ m ρ c) ∗ Pr c ∗ Ow c)
  X c := Pr c
  Y c := Pr c
  Z c := Pipeline.unscopedRest (Ix := Unit) (Name := ℕ) (U := UR sig nD τ) (Lvl := ℕ) spec0 c (V m c)
  hentry c := by
    rw [show StableHlo.held (c : Thread nD τ) (Pipeline.ucRefs τ sig) (V₀ m ρ c) = unscopedBufs c (V m c) from (Pipeline.unscopedBufs_held c _).symm,
      Pipeline.ownSems0_none, Pipeline.unscopedBufs_split₀ cfgs 0 winFacts₀0.arr_unscoped c (V m c)]
    iintro ⟨⟨⟨Ha, Hr⟩, Hp, HO⟩, -, -⟩
    ihave Ha' := (arrays_iff m c (V m c)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show ((dats m 0 c).arrays ((dats m 0 c).arrAt · cfg0.N) : sProp 𝕄) = (dats m 0 c).arrays (fun w => G₁ m ρ c (Pipeline.arrRef spec0 w))
        from congrArg _ (funext fun w => exit_arr m ρ c w),
      show StableHlo.held (c : Thread nD τ) (Pipeline.ucRefs τ sig) (V₁ m ρ c) = unscopedBufs c (G₁ m ρ c) from (Pipeline.unscopedBufs_held c _).symm,
      Pipeline.unscopedBufs_split₀ cfgs 0 winFacts₀0.arr_unscoped c (G₁ m ρ c), rest_eq m ρ c]
    iintro ⟨Ha, HO, HY, HZ⟩
    ihave Ha' := (arrays_iff m c (G₁ m ρ c)).2 $$ Ha
    imodintro
    isplitl [Ha' HZ]
    · isplitl [Ha']; · iexact Ha'
      iexact HZ
    isplitl [HY]; · iexact HY
    unfold Pipeline.Dat.owesAt Pipeline.owesWithin
    icases HO with ⟨%W, -, HO⟩; iexists W; iexact HO

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m ρ) (fun c => iprop(Pr c ∗ Ow c))

abbrev segs : List (Pipeline.Seg (pcfgs (F := F)) adm (dats m) () defs₀ 𝒱₀ L lv) := [.region (reg0 m ρ), .host (seg1 m ρ)]

abbrev Tₙ (c : Dev nD) : sProp 𝕄 :=
  iprop(StableHlo.held (c : Thread nD τ) (Pipeline.ucRefs τ sig) (StableHlo.after hostOps1 (V₁ m ρ c)) ∗ Pr c)

/-- The physical post: every unscoped buffer at the host operations' term of the exit valuation. -/
def QC : PUnit × MemSt nD τ sig (Elt F) → Prop := fun r =>
  ∀ c : Dev nD, ∀ b ∈ Pipeline.ucRefs τ sig, r.2.mem ((c : Thread nD τ).1, b) = StableHlo.after hostOps1 (V₁ m ρ c) b

set_option backward.isDefEq.respectTransparency.types false in
/-- Every weakly fair execution of @main terminates, nothing faulting, with every unscoped buffer at the host
    operations' term of the region's exit valuation. -/
theorem run_main : θ_run defs (onTc (τ := τ) (main (F := F))) (s₀ m ρ) (QC m ρ) :=
  Pipeline.θ_run_regions_kit (pcfgs (F := F)) adm (dats m) () cellOf_inj EP defs₀ 𝒱₀ L lv m ρ main (segs m ρ)
    (fun c Q => by rw [main_segs adm (dats m) () 𝒱₀ L lv (seg1 m ρ) (reg0 m ρ) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ Pr c ∗ Ow c)) (Tₙ := Tₙ m ρ)
    (hch := ⟨fun _ => .rfl, fun _ => .rfl, fun c => by
      show iprop(StableHlo.held (c : Thread nD τ) (Pipeline.ucRefs τ sig) (StableHlo.after hostOps1 (V₁ m ρ c)) ∗ Pr c ∗ Ow c)
        ⊢ iprop(Tₙ m ρ c ∗ Ow c)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = StableHlo.after hostOps1 (V₁ m ρ c) b)
    (hfin := fun c s' => by
      iintro ⟨⟨Hh, -⟩, HSI⟩
      unfold StableHlo.held
      ihave H := (pointsTo_read_all (Pipeline.ucRefs τ sig) (fun b => ((c : Thread nD τ).1, b)) (fun b => StableHlo.after hostOps1 (V₁ m ρ c) b) s') $$ [Hh HSI]
      · isplitl [Hh] <;> iassumption
      icases H with ⟨%h, HSI⟩
      imodintro
      isplitr; · ipureintro; exact h
      iexact HSI)
    (hQ := fun _ h => h)

/-! ## Reading the run -/

/-- The four host operations write neither argument, nor the losses' array. -/
theorem not_written (b : Ref sig .tc) (hb : b ≠ main_cst ∧ b ≠ main_v1 ∧ b ≠ main_cst_0 ∧ b ≠ main_v2) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

theorem mem_uc (b : Ref sig .tc) (hb : b.isScoped = false) : (Proc.devRef .tc b : DevRef τ sig) ∈ Pipeline.ucRefs τ sig := by
  unfold Pipeline.ucRefs StableHlo.tcRefs
  refine Finset.mem_filter.mpr ⟨Finset.mem_map.mpr ⟨b, Finset.mem_univ _, rfl⟩, ?_⟩
  show ¬ (b.isScoped = true)
  rw [hb]; exact Bool.false_ne_true

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 rfl)).trans ((StableHlo.after_of_forall_not_mem hostOps1 _ (not_written main_arg0 (by decide))).trans (V₁_ne m ρ c main_arg0 (by decide))),
     (h c _ (mem_uc main_arg1 rfl)).trans ((StableHlo.after_of_forall_not_mem hostOps1 _ (not_written main_arg1 (by decide))).trans (V₁_ne m ρ c main_arg1 (by decide)))⟩)
    (run_main m ρ)

/-- The mean of 8192 values as the program's last four operations spell it: their sum from zero, divided by 8192. -/
def meanOf (v : FVec F S8192 .f32) : FVec F S_ .f32 :=
  Host.divf (Host.reduceAdd v (constant (F := F) S_ .f32 0x00000000#32) reducesTo_S8192_S_d0 h_S_) (constant (F := F) S_ .f32 0x46000000#32)

theorem tail_eq (W : Valuation τ sig (Elt F)) :
    StableHlo.after hostOps1 W (Proc.devRef .tc main_v2) = meanOf (F := F) (W (Proc.devRef .tc main_v0)) := by
  unfold meanOf
  after_results

/-- THE RESULT: the run ends with the result buffer at the mean of the losses' array as the write-backs left it, and
    the arguments as launched. -/
theorem run_result : θ_run defs (onTc (τ := τ) (main (F := F))) ⟨m, fun _ => 0, ρ⟩ (fun r => ∀ c : Dev nD,
      r.2.mem ((c.tc : Thread nD τ).loc main_v2) = meanOf (F := F) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 rfl)).trans ((tail_eq (V₁ m ρ c)).trans (congrArg (meanOf (F := F)) (V₁_v0 m ρ c))),
     (h c _ (mem_uc main_arg0 rfl)).trans ((StableHlo.after_of_forall_not_mem hostOps1 _ (not_written main_arg0 (by decide))).trans (V₁_ne m ρ c main_arg0 (by decide))),
     (h c _ (mem_uc main_arg1 rfl)).trans ((StableHlo.after_of_forall_not_mem hostOps1 _ (not_written main_arg1 (by decide))).trans (V₁_ne m ρ c main_arg1 (by decide)))⟩)
    (run_main m ρ)

end Cert.Kernel.Hand

end
-- ==== Proof.KIBody.lean ====
/-
  One grid point of the triplet-loss kernel, and the pipeline's proof data.

  The kernel handles 128 anchor rows per grid point. It reads four blocks — the anchors' 128 rows of the embedding
  matrix, the whole matrix (the keys), the anchors' 128 labels, and all labels — and writes 128 losses. The matrix and the
  label vector are each handed to it twice, through two windows; each such array's one buffer is dealt to its two windows
  as the left and the right half of the full share. Inside the point two counted loops sweep the keys 1024 at a time:
  the first carries the running maximum (hardest positive), the second the two running minima (hardest semi-hard
  negative, hardest negative). What the point stores is named here as a function of the four blocks: the final
  arithmetic applied to what the two sweeps carry out.
-/
import proofs.«120611_j52630529245412_2_alg».proof.Proof.Gen.KernelIdeal.Launch
import proofs.«120611_j52630529245412_2_alg».proof.Proof.Gen.KernelIdeal.Skeleton
import proofs.«120611_j52630529245412_2_alg».proof.Proof.Gen.KernelIdeal.Points
import proofs.«120611_j52630529245412_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The region is the first thing the program runs: it finds every buffer as launched. -/
abbrev V (c : Dev nD) (b : Ref sig .tc) : Buf (Elt F) ((c : Thread nD τ).loc b) := m ((c : Thread nD τ).loc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs: fetched at that point, or — for the two
    whole-array windows, fetched at the first point only — left in place since, the block index not having moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What one grid point stores -/

/-- The one store of a point covers the whole 128-entry output block. -/
abbrev r5 : Rect S128 := Rect.unit (s := S128) ![0] S128.size inb_S128_S128_0

/-- The 128 losses a point stores, from the contents of its four input buffers: the anchors' rows and labels are
    loaded once; the first sweep over the keys carries out the hardest positive, the second — which reads it — the
    two hardest negatives; the last arithmetic turns the three into the loss. -/
def outv (c : Dev nD) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole)
    (f1 : BufTy.Contents (Elt F) arg1.view.ty) (f2 : BufTy.Contents (Elt F) arg2.view.ty)
    (f3 : BufTy.Contents (Elt F) arg3.view.ty) (f4 : BufTy.Contents (Elt F) arg4.view.ty) : FVec F S128 .f32 :=
  let v0 : BitVec 32 := Scalar.muli (BitVec.ofNat 32 (i 0).val) 128#32
  let v1 := View.readAt (Elt F) arg1.view (Rect.unit (s := S128x512) ![0, 0] S128x512.size inb_S128x512_S128x512_0_0).toLoadRect f1
  let v5 := View.readAt (Elt F) arg3.view (Rect.unit (s := S128) ![0] S128.size inb_S128_S128_0).toLoadRect f3
  let hp := st_k0_t1 (F := F) Variants.none c none i arg1 harg1 arg2 harg2 arg3 harg3 arg4 harg4 arg5 harg5 v0 v1 v5 f2 f4 k0_pay3
    (Scf.trips k0_t1_loop.lb k0_t1_loop.ub k0_t1_loop.st)
  let s2 := st_k0_t2 (F := F) Variants.none c none i arg1 harg1 arg2 harg2 arg3 harg3 arg4 harg4 arg5 harg5 v0 v1 v5 hp f2 f4 (k0_pay4, k0_pay5)
    (Scf.trips k0_t2_loop.lb k0_t2_loop.ub k0_t2_loop.st)
  k0_pay8 hp s2.1 s2.2

theorem cover5 (p0 : Vec F S128 .f32) (y : S128.Idx) :
    ∃ pc ∈ ([⟨r5, p0⟩] : List (View.Piece (Elt F) S128 .f32)), y ∈ pc.1.set :=
  View.cover_of_tiled [⟨r5, p0⟩] S128.size (by rfl) y

/-! ## The body's triple -/

set_option maxHeartbeats 4000000 in
/-- The kernel body on whole staging buffers — the four inputs' at any contents, the output's at anything — runs to
    the end leaving the inputs' as they were and the output's holding the point's losses: three loads, the two sweeps
    through their invariants, one more load (of the output block, unused) and the store. -/
theorem sound_kernel (c : Dev nD) (E : Set ℕ) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole)
    (f1 : BufTy.Contents (Elt F) arg1.view.ty) (f2 : BufTy.Contents (Elt F) arg2.view.ty)
    (f3 : BufTy.Contents (Elt F) arg3.view.ty) (f4 : BufTy.Contents (Elt F) arg4.view.ty) (K : PUnit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (∃ d, owns (c : Thread nD τ) arg5 fullShare d)
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (arg4.view.loc (c : Thread nD τ) ↦[arg4.view.set]{fullShare} f4)
            ∗ owns (c : Thread nD τ) arg5 fullShare
                (View.canon [⟨r5, outv (F := F) c i arg1 harg1 arg2 harg2 arg3 harg3 arg4 harg4 arg5 harg5 f1 f2 f3 f4⟩])) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  unfold owns
  iintro ⟨H1, H2, H3, H4, ⟨%d5, %f5, -, H5⟩, Hk⟩
  sl_exec
  sl_step
  iapply Hk
  isplitl [H1]; · iexact H1
  isplitl [H2]; · iexact H2
  isplitl [H3]; · iexact H3
  isplitl [H4]; · iexact H4
  iexists _; isplitr
  swap; · iexact H5
  ipureintro
  exact View.read_writes_eq_canon _ _ _ (cover5 _)

end Cert.KernelIdeal.Hand

end
-- ==== Proof.KIData.lean ====
/-
  The pipeline's proof data for the triplet-loss kernel, and the body obligation at every grid point.

  After the body at point t each input window's staging buffer still holds its block, and the output window's holds the
  point's 128 losses (the function of the four input buffers' contents named with the body's triple). The arrays the
  windows read twice are held by halves; the output's at the full share. The region's invariant is the class's: the
  scoped buffers no window stages and the generator register, untouched.
-/
import proofs.«120611_j52630529245412_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffers the body is called with at point `t` are whole buffers. -/
abbrev hst0 (t : Fin cfg0.N) : (win0_0.stage (cfg0.slots t 0)).IsWhole := hstage0_0 ((cfg0.slots t 0).cast nbuf0_0)
abbrev hst1 (t : Fin cfg0.N) : (win0_1.stage (cfg0.slots t 1)).IsWhole := hstage0_1 ((cfg0.slots t 1).cast nbuf0_1)
abbrev hst2 (t : Fin cfg0.N) : (win0_2.stage (cfg0.slots t 2)).IsWhole := hstage0_2 ((cfg0.slots t 2).cast nbuf0_2)
abbrev hst3 (t : Fin cfg0.N) : (win0_3.stage (cfg0.slots t 3)).IsWhole := hstage0_3 ((cfg0.slots t 3).cast nbuf0_3)
abbrev hst4 (t : Fin cfg0.N) : (win0_4.stage (cfg0.slots t 4)).IsWhole := hstage0_4 ((cfg0.slots t 4).cast nbuf0_4)

/-- The losses point `t` stores, from the four blocks it reads (each block as the contents of a whole buffer). -/
def lossBlock (c : Dev nD) (t : Fin cfg0.N) : Vec F S128 .f32 :=
  View.canon [⟨r5, outv (F := F) c (grid0.coords t)
    (win0_0.stage (cfg0.slots t 0)) (hst0 t) (win0_1.stage (cfg0.slots t 1)) (hst1 t)
    (win0_2.stage (cfg0.slots t 2)) (hst2 t) (win0_3.stage (cfg0.slots t 3)) (hst3 t)
    (win0_4.stage (cfg0.slots t 4)) (hst4 t)
    ((hst0 t).unread (iblk m c 0 t)) ((hst1 t).unread (iblk m c 1 t))
    ((hst2 t).unread (iblk m c 2 t)) ((hst3 t).unread (iblk m c 3 t))⟩]

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossBlock m c t
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = lossBlock m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: each input's staging buffer holds its block, so its contents are the block's unread image;
    the body's triple applies at those contents; the invariant and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, H4⟩⟩
  obtain rfl := (hst0 t).eq_unread hf0
  obtain rfl := (hst1 t).eq_unread hf1
  obtain rfl := (hst2 t).eq_unread hf2
  obtain rfl := (hst3 t).eq_unread hf3
  iapply (sound_kernel (F := F) c Set.univ (grid0.coords t) _ (hst0 t) _ (hst1 t) _ (hst2 t) _ (hst3 t) _ (hst4 t) _ _ _ _ _)
  isplitl [H0]; · iexact H0
  isplitl [H1]; · iexact H1
  isplitl [H2]; · iexact H2
  isplitl [H3]; · iexact H3
  isplitl [H4]; · iexists _; unfold owns; iexact H4
  iintro ⟨H0, H1, H2, H3, H4⟩
  isplitl [HΦ]; · iexact HΦ
  isplitl [Ho]; · iexact Ho
  isplitl [H0]; · iexists _; isplitr; · ipureintro; exact (hst0 t).read_unread _
                  iexact H0
  isplitl [H1]; · iexists _; isplitr; · ipureintro; exact (hst1 t).read_unread _
                  iexact H1
  isplitl [H2]; · iexists _; isplitr; · ipureintro; exact (hst2 t).read_unread _
                  iexact H2
  isplitl [H3]; · iexists _; isplitr; · ipureintro; exact (hst3 t).read_unread _
                  iexact H3
  unfold lossBlock owns
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of the triplet-loss program: the region, then the mean over the 8192 losses.

  @main is the kernel region followed by four host operations (a zero, the sum of the losses, the constant 8192, the
  quotient). The region is entered from every unscoped buffer as launched; the embedding matrix and the label vector,
  each read through two windows, are dealt to their windows by halves on entry and made whole again on exit; the host
  operations then run within all unscoped buffers, the losses' array at what the region wrote. Every weakly fair
  execution terminates; the two argument arrays end as launched, and the result buffer ends at the host operations'
  term of the losses' array.
-/
import proofs.«120611_j52630529245412_2_alg».proof.Proof.KIData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- Core `c`'s buffers at launch, as a valuation. -/
abbrev V₀ (c : Dev nD) : Valuation τ sig (Elt F) := fun b => (s₀ m ρ).mem ((c : Dev nD), b)

/-- The valuation at the region's exit: the losses' array at what the write-backs left, everything else as launched. -/
def V₁ (c : Dev nD) : Valuation τ sig (Elt F) :=
  Function.update (V₀ m ρ c) (Proc.devRef .tc main_v0) ((dats m 0 c).arrAt 4 cfg0.N)

/-- What rides beside the buffers: the generator register at some state and the core owing nothing. -/
abbrev Pr (c : Dev nD) : sProp 𝕄 := iprop(∃ r, prngReg c r)
abbrev Ow (c : Dev nD) : sProp 𝕄 := iprop(∃ W, owes (c : Thread nD τ) (0 : CellTallies nD τ sig Unit) W)

/-- The buffers behind the windows' arrays, each whole at the full share, ARE the windows' arrays at their shares: the
    matrix's and the labels' buffers each as a left and a right half, the losses' whole. -/
theorem arrays_iff (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      ⊣⊢ (dats m 0 c).arrays (fun w => G (Pipeline.arrRef spec0 w)) := by
  unfold Pipeline.arrBufs Dat.arrays
  rw [bigSep_W0, bigSep_eq_bigSepL_of_eq [main_arg0, main_arg1, main_v0] (by decide) (by decide)]
  simp only [bigSepL_cons]
  rw [(arr_whole0 0).set_eq_univ, (arr_whole0 2).set_eq_univ, (arr_whole0 4).set_eq_univ]
  show iprop((((c : Thread nD τ).loc main_arg0) ↦{fullShare} G main_arg0) ∗ (((c : Thread nD τ).loc main_arg1) ↦{fullShare} G main_arg1)
        ∗ (((c : Thread nD τ).loc main_v0) ↦{fullShare} G main_v0) ∗ bigSepL [] _)
      ⊣⊢ iprop((((c : Thread nD τ).loc main_arg0) ↦{fullShare.left} G main_arg0) ∗ (((c : Thread nD τ).loc main_arg0) ↦{fullShare.right} G main_arg0)
        ∗ (((c : Thread nD τ).loc main_arg1) ↦{fullShare.left} G main_arg1) ∗ (((c : Thread nD τ).loc main_arg1) ↦{fullShare.right} G main_arg1)
        ∗ (((c : Thread nD τ).loc main_v0) ↦{fullShare} G main_v0))
  refine ⟨?_, ?_⟩
  · iintro ⟨H0, H1, H2, -⟩
    ihave H0' := (pointsTo_share (PosShare.mem_left_op_right fullShare)).1 $$ H0
    icases H0' with ⟨H0a, H0b⟩
    ihave H1' := (pointsTo_share (PosShare.mem_left_op_right fullShare)).1 $$ H1
    icases H1' with ⟨H1a, H1b⟩
    isplitl [H0a]; · iexact H0a
    isplitl [H0b]; · iexact H0b
    isplitl [H1a]; · iexact H1a
    isplitl [H1b]; · iexact H1b
    iexact H2
  · iintro ⟨H0a, H0b, H1a, H1b, H2⟩
    isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    isplitl [H2]; · iexact H2
    unfold bigSepL; iempintro

/-- The exit valuation read at a TensorCore reference. -/
abbrev G₁ (c : Dev nD) (b : Ref sig .tc) : Buf (Elt F) ((c : Thread nD τ).loc b) := V₁ m ρ c b

theorem V₁_ne (c : Dev nD) (b : Ref sig .tc) (h : b ≠ main_v0) : G₁ m ρ c b = V m c b := by
  unfold G₁ V₁
  exact Function.update_of_ne (StableHlo.devRef_ne_of_ne h) _ _

theorem V₁_v0 (c : Dev nD) : G₁ m ρ c main_v0 = (dats m 0 c).arrAt 4 cfg0.N := by
  unfold G₁ V₁
  exact Function.update_self _ _ _

/-- After the last write-back every window's array holds the exit valuation: an input's array was never written, the
    losses' holds what the write-backs left. -/
theorem exit_arr (c : Dev nD) (w : Fin cfg0.W) : (dats m 0 c).arrAt w cfg0.N = G₁ m ρ c (Pipeline.arrRef spec0 w) := by
  match w with
  | ⟨0, _⟩ => exact ((dats m 0 c).arrAt_in 0 rfl _).trans (V₁_ne m ρ c main_arg0 (by decide)).symm
  | ⟨1, _⟩ => exact ((dats m 0 c).arrAt_in 1 rfl _).trans (V₁_ne m ρ c main_arg0 (by decide)).symm
  | ⟨2, _⟩ => exact ((dats m 0 c).arrAt_in 2 rfl _).trans (V₁_ne m ρ c main_arg1 (by decide)).symm
  | ⟨3, _⟩ => exact ((dats m 0 c).arrAt_in 3 rfl _).trans (V₁_ne m ρ c main_arg1 (by decide)).symm
  | ⟨4, _⟩ => exact (V₁_v0 m ρ c).symm

/-- The buffers that bypass the region hold at the exit what they held at the entry. -/
theorem rest_eq (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (G₁ m ρ c) := by
  rw [unscopedRest0_eq, unscopedRest0_eq, V₁_ne m ρ c main_cst (by decide), V₁_ne m ρ c main_v1 (by decide),
    V₁_ne m ρ c main_cst_0 (by decide), V₁_ne m ρ c main_v2 (by decide)]

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m ρ c) ∗ Pr c ∗ Ow c)
  post c := iprop(StableHlo.held (c : Thread nD τ) (Pipeline.ucRefs τ sig) (V₁ m ρ c) ∗ Pr c ∗ Ow c)
  X c := Pr c
  Y c := Pr c
  Z c := Pipeline.unscopedRest (Ix := Unit) (Name := ℕ) (U := UR sig nD τ) (Lvl := ℕ) spec0 c (V m c)
  hentry c := by
    rw [show StableHlo.held (c : Thread nD τ) (Pipeline.ucRefs τ sig) (V₀ m ρ c) = unscopedBufs c (V m c) from (Pipeline.unscopedBufs_held c _).symm,
      Pipeline.ownSems0_none, Pipeline.unscopedBufs_split₀ cfgs 0 winFacts₀0.arr_unscoped c (V m c)]
    iintro ⟨⟨⟨Ha, Hr⟩, Hp, HO⟩, -, -⟩
    ihave Ha' := (arrays_iff m c (V m c)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show ((dats m 0 c).arrays ((dats m 0 c).arrAt · cfg0.N) : sProp 𝕄) = (dats m 0 c).arrays (fun w => G₁ m ρ c (Pipeline.arrRef spec0 w))
        from congrArg _ (funext fun w => exit_arr m ρ c w),
      show StableHlo.held (c : Thread nD τ) (Pipeline.ucRefs τ sig) (V₁ m ρ c) = unscopedBufs c (G₁ m ρ c) from (Pipeline.unscopedBufs_held c _).symm,
      Pipeline.unscopedBufs_split₀ cfgs 0 winFacts₀0.arr_unscoped c (G₁ m ρ c), rest_eq m ρ c]
    iintro ⟨Ha, HO, HY, HZ⟩
    ihave Ha' := (arrays_iff m c (G₁ m ρ c)).2 $$ Ha
    imodintro
    isplitl [Ha' HZ]
    · isplitl [Ha']; · iexact Ha'
      iexact HZ
    isplitl [HY]; · iexact HY
    unfold Pipeline.Dat.owesAt Pipeline.owesWithin
    icases HO with ⟨%W, -, HO⟩; iexists W; iexact HO

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V₁ m ρ) (fun c => iprop(Pr c ∗ Ow c))

abbrev segs : List (Pipeline.Seg (pcfgs (F := F)) adm (dats m) () defs₀ 𝒱₀ L lv) := [.region (reg0 m ρ), .host (seg1 m ρ)]

abbrev Tₙ (c : Dev nD) : sProp 𝕄 :=
  iprop(StableHlo.held (c : Thread nD τ) (Pipeline.ucRefs τ sig) (StableHlo.after hostOps1 (V₁ m ρ c)) ∗ Pr c)

/-- The physical post: every unscoped buffer at the host operations' term of the exit valuation. -/
def QC : PUnit × MemSt nD τ sig (Elt F) → Prop := fun r =>
  ∀ c : Dev nD, ∀ b ∈ Pipeline.ucRefs τ sig, r.2.mem ((c : Thread nD τ).1, b) = StableHlo.after hostOps1 (V₁ m ρ c) b

set_option backward.isDefEq.respectTransparency.types false in
/-- Every weakly fair execution of @main terminates, nothing faulting, with every unscoped buffer at the host
    operations' term of the region's exit valuation. -/
theorem run_main : θ_run defs (onTc (τ := τ) (main (F := F))) (s₀ m ρ) (QC m ρ) :=
  Pipeline.θ_run_regions_kit (pcfgs (F := F)) adm (dats m) () cellOf_inj EP defs₀ 𝒱₀ L lv m ρ main (segs m ρ)
    (fun c Q => by rw [main_segs adm (dats m) () 𝒱₀ L lv (seg1 m ρ) (reg0 m ρ) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ Pr c ∗ Ow c)) (Tₙ := Tₙ m ρ)
    (hch := ⟨fun _ => .rfl, fun _ => .rfl, fun c => by
      show iprop(StableHlo.held (c : Thread nD τ) (Pipeline.ucRefs τ sig) (StableHlo.after hostOps1 (V₁ m ρ c)) ∗ Pr c ∗ Ow c)
        ⊢ iprop(Tₙ m ρ c ∗ Ow c)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = StableHlo.after hostOps1 (V₁ m ρ c) b)
    (hfin := fun c s' => by
      iintro ⟨⟨Hh, -⟩, HSI⟩
      unfold StableHlo.held
      ihave H := (pointsTo_read_all (Pipeline.ucRefs τ sig) (fun b => ((c : Thread nD τ).1, b)) (fun b => StableHlo.after hostOps1 (V₁ m ρ c) b) s') $$ [Hh HSI]
      · isplitl [Hh] <;> iassumption
      icases H with ⟨%h, HSI⟩
      imodintro
      isplitr; · ipureintro; exact h
      iexact HSI)
    (hQ := fun _ h => h)

/-! ## Reading the run -/

/-- The four host operations write neither argument, nor the losses' array. -/
theorem not_written (b : Ref sig .tc) (hb : b ≠ main_cst ∧ b ≠ main_v1 ∧ b ≠ main_cst_0 ∧ b ≠ main_v2) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

theorem mem_uc (b : Ref sig .tc) (hb : b.isScoped = false) : (Proc.devRef .tc b : DevRef τ sig) ∈ Pipeline.ucRefs τ sig := by
  unfold Pipeline.ucRefs StableHlo.tcRefs
  refine Finset.mem_filter.mpr ⟨Finset.mem_map.mpr ⟨b, Finset.mem_univ _, rfl⟩, ?_⟩
  show ¬ (b.isScoped = true)
  rw [hb]; exact Bool.false_ne_true

/-- THE FRAME: every weakly fair execution terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 rfl)).trans ((StableHlo.after_of_forall_not_mem hostOps1 _ (not_written main_arg0 (by decide))).trans (V₁_ne m ρ c main_arg0 (by decide))),
     (h c _ (mem_uc main_arg1 rfl)).trans ((StableHlo.after_of_forall_not_mem hostOps1 _ (not_written main_arg1 (by decide))).trans (V₁_ne m ρ c main_arg1 (by decide)))⟩)
    (run_main m ρ)

/-- The mean of 8192 values as the program's last four operations spell it: their sum from zero, divided by 8192. -/
def meanOf (v : FVec F S8192 .f32) : FVec F S_ .f32 :=
  Host.divf (Host.reduceAdd v (constant (F := F) S_ .f32 0x00000000#32) reducesTo_S8192_S_d0 h_S_) (constant (F := F) S_ .f32 0x46000000#32)

theorem tail_eq (W : Valuation τ sig (Elt F)) :
    StableHlo.after hostOps1 W (Proc.devRef .tc main_v2) = meanOf (F := F) (W (Proc.devRef .tc main_v0)) := by
  unfold meanOf
  after_results

/-- THE RESULT: the run ends with the result buffer at the mean of the losses' array as the write-backs left it, and
    the arguments as launched. -/
theorem run_result : θ_run defs (onTc (τ := τ) (main (F := F))) ⟨m, fun _ => 0, ρ⟩ (fun r => ∀ c : Dev nD,
      r.2.mem ((c.tc : Thread nD τ).loc main_v2) = meanOf (F := F) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 rfl)).trans ((tail_eq (V₁ m ρ c)).trans (congrArg (meanOf (F := F)) (V₁_v0 m ρ c))),
     (h c _ (mem_uc main_arg0 rfl)).trans ((StableHlo.after_of_forall_not_mem hostOps1 _ (not_written main_arg0 (by decide))).trans (V₁_ne m ρ c main_arg0 (by decide))),
     (h c _ (mem_uc main_arg1 rfl)).trans ((StableHlo.after_of_forall_not_mem hostOps1 _ (not_written main_arg1 (by decide))).trans (V₁_ne m ρ c main_arg1 (by decide)))⟩)
    (run_main m ρ)

end Cert.KernelIdeal.Hand

end
-- ==== Proof.Spec.lean ====
/-
  The batch-hard / semi-hard triplet loss of one anchor row, on the extended reals, as ONE function of the embedding
  matrix and the label vector.

  For anchors i and keys j over 8192 rows of 512 features:
    sq i      = Σ_k x(i,k)²,   dot i j = Σ_k x(i,k)·x(j,k)
    d2 i j    = 0 on the diagonal, else max (sq i + sq j − 2·dot i j) 0
    nz i j    = [d2 i j > 0],   dist i j = √d2 where nz, else 0   (the inner guard feeds √ the value 1 where d2 = 0)
    same i j  = [label i = label j]
    hp i      = max over j of dist i j where same ∧ nz, else −∞          (hardest positive)
    semi i j  = ¬same ∧ [dist i j > hp i]
    hs i      = min over j of dist i j where semi, else +∞               (hardest semi-hard negative)
    ha i      = min over j of dist i j where ¬same, else +∞              (hardest negative)
    loss i    = max (hp i − hn i + margin) 0,   hn i = hs i if some semi-hard negative exists, else ha i.

  "Some semi-hard negative exists" is spelt two ways: as hs i < +∞ (a running minimum that left its initial +∞), and
  as the disjunction over j of semi i j. They agree when every distance is finite, which holds when every entry of
  the embedding matrix is a real number.
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx

/-- The embedding matrix and the label vector, as arrays at the ideal values. -/
abbrev Emb : Type := (⟨2, ![8192, 512]⟩ : Shape).Idx → EReal
abbrev Lab : Type := (⟨1, ![8192]⟩ : Shape).Idx → BitVec 32

/-- The four float literals of the loss, kept as their words: 0, 1, 2 and the margin 0.2 (as f32). -/
abbrev zero : EReal := Ideal.ofBits .f32 0x00000000#32
abbrev one : EReal := Ideal.ofBits .f32 0x3F800000#32
abbrev two : EReal := Ideal.ofBits .f32 0x40000000#32
abbrev margin : EReal := Ideal.ofBits .f32 0x3E4CCCCD#32

def sq (X : Emb) (i : Fin 8192) : EReal := ∑ k : Fin 512, X (ix2 i k) * X (ix2 i k)
def dot (X : Emb) (i j : Fin 8192) : EReal := ∑ k : Fin 512, X (ix2 i k) * X (ix2 j k)
def d2 (X : Emb) (i j : Fin 8192) : EReal := if i = j then zero else max (sq X i + sq X j - two * dot X i j) zero
def nz (X : Emb) (i j : Fin 8192) : BitVec 1 := Ideal.cmp .ogt (d2 X i j) zero
def dist (X : Emb) (i j : Fin 8192) : EReal :=
  Scalar.select (nz X i j) (Ideal.sqrt (Scalar.select (nz X i j) (d2 X i j) one)) zero
def same (L : Lab) (i j : Fin 8192) : BitVec 1 := IntOp.cmpi .eq (L (ix1 i)) (L (ix1 j))
def neg (L : Lab) (i j : Fin 8192) : BitVec 1 := IntOp.xori (same L i j) 1#1
def hp (X : Emb) (L : Lab) (i : Fin 8192) : EReal :=
  (Finset.univ : Finset (Fin 8192)).fold max ⊥ fun j => Scalar.select (IntOp.andi (same L i j) (nz X i j)) (dist X i j) ⊥
def semi (X : Emb) (L : Lab) (i j : Fin 8192) : BitVec 1 := IntOp.andi (neg L i j) (Ideal.cmp .ogt (dist X i j) (hp X L i))
def hs (X : Emb) (L : Lab) (i : Fin 8192) : EReal :=
  (Finset.univ : Finset (Fin 8192)).fold min ⊤ fun j => Scalar.select (semi X L i j) (dist X i j) ⊤
def ha (X : Emb) (L : Lab) (i : Fin 8192) : EReal :=
  (Finset.univ : Finset (Fin 8192)).fold min ⊤ fun j => Scalar.select (neg L i j) (dist X i j) ⊤
def lossOf (p n : EReal) : EReal := max (p - n + margin) zero

/-- The loss with "a semi-hard negative exists" read off the running minimum. -/
def lossMin (X : Emb) (L : Lab) (i : Fin 8192) : EReal :=
  lossOf (hp X L i) (Scalar.select (Ideal.cmp .olt (hs X L i) ⊤) (hs X L i) (ha X L i))

/-- The loss with it read as the disjunction over the keys. -/
def lossAny (X : Emb) (L : Lab) (i : Fin 8192) : EReal :=
  lossOf (hp X L i) (Scalar.select ((Finset.univ : Finset (Fin 8192)).fold IntOp.ori 0#1 fun j => semi X L i j) (hs X L i) (ha X L i))

/-- A maximum taken tile by tile: 1024 keys at a time, each tile's maximum folded into the running one. -/
def tileMax (f : ℕ → EReal) : ℕ → EReal
  | 0 => ⊥
  | k + 1 => max (tileMax f k) ((Finset.univ : Finset (Fin 1024)).fold max ⊥ fun c => f (1024 * k + c.val))

/-- A minimum taken tile by tile. -/
def tileMin (f : ℕ → EReal) : ℕ → EReal
  | 0 => ⊤
  | k + 1 => min (tileMin f k) ((Finset.univ : Finset (Fin 1024)).fold min ⊤ fun c => f (1024 * k + c.val))

end Cert.Triplet

end
-- ==== Proof.LossLaws.lean ====
/-
  Laws on the extended reals used by the triplet-loss specification.

  Part 1. A maximum (minimum) over 8192 keys taken as eight consecutive tiles of 1024 keys is the maximum (minimum)
  over all 8192 keys. Both sides are least upper bounds (greatest lower bounds) of the same family, so it is enough to
  compare their upper (lower) bounds: `tileMax f n ≤ b` holds exactly when every `f j` with `j < 1024 * n` is `≤ b`.

  Part 2. When every entry of the embedding matrix is a real number, every distance is a real number or −∞, never +∞.
  Then the running minimum of the distances over the semi-hard negatives, started at +∞, ends below +∞ exactly when
  some key is a semi-hard negative, which is what the disjunction over the keys says; so the two ways of choosing
  between the hardest semi-hard negative and the hardest negative pick the same one, and the two losses are equal.
-/
import proofs.«120611_j52630529245412_2_alg».proof.Proof.Spec

noncomputable section

namespace Cert.Triplet

open Idealize.ShloMosaic Idealize.ShloMosaic.ValueIdx

/-- A fold of `max` from `⊥` is the supremum of the family. -/
theorem fold_max_eq_sup {ι : Type} (s : Finset ι) (g : ι → EReal) : s.fold max ⊥ g = s.sup g := rfl

/-- A fold of `min` from `⊤` is the infimum of the family. -/
theorem fold_min_eq_inf {ι : Type} (s : Finset ι) (g : ι → EReal) : s.fold min ⊤ g = s.inf g := rfl

/-- The upper bounds of the tiled maximum over `n` tiles are the upper bounds of the first `1024 * n` values. -/
theorem tileMax_le_iff (f : ℕ → EReal) (n : ℕ) (b : EReal) :
    tileMax f n ≤ b ↔ ∀ j, j < 1024 * n → f j ≤ b := by
  induction n with
  | zero => simp [tileMax]
  | succ k ih =>
    rw [tileMax, max_le_iff, ih, fold_max_eq_sup, Finset.sup_le_iff]
    constructor
    · rintro ⟨h1, h2⟩ j hj
      by_cases hjk : j < 1024 * k
      · exact h1 j hjk
      · have h3 := h2 ⟨j - 1024 * k, by omega⟩ (Finset.mem_univ _)
        have h4 : 1024 * k + (j - 1024 * k) = j := by omega
        simpa only [h4] using h3
    · intro h
      exact ⟨fun j hj => h j (by omega), fun c _ => h _ (by have := c.isLt; omega)⟩

/-- The lower bounds of the tiled minimum over `n` tiles are the lower bounds of the first `1024 * n` values. -/
theorem le_tileMin_iff (f : ℕ → EReal) (n : ℕ) (b : EReal) :
    b ≤ tileMin f n ↔ ∀ j, j < 1024 * n → b ≤ f j := by
  induction n with
  | zero => simp [tileMin]
  | succ k ih =>
    rw [tileMin, le_min_iff, ih, fold_min_eq_inf, Finset.le_inf_iff]
    constructor
    · rintro ⟨h1, h2⟩ j hj
      by_cases hjk : j < 1024 * k
      · exact h1 j hjk
      · have h3 := h2 ⟨j - 1024 * k, by omega⟩ (Finset.mem_univ _)
        have h4 : 1024 * k + (j - 1024 * k) = j := by omega
        simpa only [h4] using h3
    · intro h
      exact ⟨fun j hj => h j (by omega), fun c _ => h _ (by have := c.isLt; omega)⟩

/-- Eight tiles of 1024 keys: the tiled maximum is the maximum over all 8192 keys. -/
theorem tileMax_eight (f : ℕ → EReal) :
    tileMax f 8 = (Finset.univ : Finset (Fin 8192)).fold max ⊥ (fun j => f j.val) := by
  refine eq_of_forall_ge_iff fun b => ?_
  rw [tileMax_le_iff, fold_max_eq_sup, Finset.sup_le_iff]
  constructor
  · intro h j _
    exact h j.val (by have := j.isLt; omega)
  · intro h j hj
    exact h ⟨j, by omega⟩ (Finset.mem_univ _)

/-- Eight tiles of 1024 keys: the tiled minimum is the minimum over all 8192 keys. -/
theorem tileMin_eight (f : ℕ → EReal) :
    tileMin f 8 = (Finset.univ : Finset (Fin 8192)).fold min ⊤ (fun j => f j.val) := by
  refine eq_of_forall_le_iff fun b => ?_
  rw [le_tileMin_iff, fold_min_eq_inf, Finset.le_inf_iff]
  constructor
  · intro h j _
    exact h j.val (by have := j.isLt; omega)
  · intro h j hj
    exact h ⟨j, by omega⟩ (Finset.mem_univ _)

/-! ## Part 2. The two spellings of "a semi-hard negative exists" agree on real inputs -/

/-- A one-bit word is 0 or 1. -/
theorem bv1_cases (c : BitVec 1) : c = 0#1 ∨ c = 1#1 := by revert c; decide

/-- Two one-bit words that are 1 together are equal. -/
theorem bv1_eq_of_iff {a b : BitVec 1} (h : a = 1#1 ↔ b = 1#1) : a = b := by
  revert a b; decide

/-- The one-bit word of a truth value is 1 exactly when the value is true. -/
theorem ofBool_eq_one_iff (b : Bool) : BitVec.ofBool b = 1#1 ↔ b = true := by cases b <;> decide

/-- The comparison "less than" gives the word 1 exactly when the order relation holds. -/
theorem cmp_olt_eq_one (a b : EReal) : Ideal.cmp .olt a b = 1#1 ↔ a < b := by
  show BitVec.ofBool (decide (a < b)) = 1#1 ↔ a < b
  rw [ofBool_eq_one_iff, decide_eq_true_iff]

/-- A one-bit "or" is 1 exactly when one of its operands is. -/
theorem ori_eq_one_iff {c d : BitVec 1} : IntOp.ori c d = 1#1 ↔ c = 1#1 ∨ d = 1#1 := by revert c d; decide

/-- A disjunction folded over a finite family is 1 exactly when some member is 1. -/
theorem fold_ori_eq_one {ι : Type} (s : Finset ι) (g : ι → BitVec 1) :
    s.fold IntOp.ori 0#1 g = 1#1 ↔ ∃ j ∈ s, g j = 1#1 := by
  classical
  induction s using Finset.induction_on with
  | empty => simp
  | insert a s ha ih => rw [Finset.fold_insert ha, ori_eq_one_iff, ih, Finset.exists_mem_insert]

/-- Coercion from the reals commutes with finite sums. -/
theorem coe_finset_sum {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The literal 0 is the extended real 0. -/
theorem zero_eq : zero = 0 := Ideal.ofBits_zero_f32

/-- The literal 2 is a real number: its exponent field is neither all ones nor all zeros, so the word denotes a
    normal number. -/
theorem two_real : ∃ t : ℝ, two = (t : EReal) := by
  show ∃ t : ℝ, Ideal.ieee 8 23 (0x40000000#32 : BitVec 32) = (t : EReal)
  unfold Ideal.ieee
  dsimp only
  rw [if_neg (by decide), if_neg (by decide)]
  exact ⟨_, rfl⟩

/-- A squared norm of a row of reals is a real. -/
theorem sq_real (X : Emb) (hX : ∀ idx, X idx ≠ ⊤ ∧ X idx ≠ ⊥) (i : Fin 8192) : ∃ r : ℝ, sq X i = (r : EReal) := by
  refine ⟨∑ k : Fin 512, (X (ix2 i k)).toReal * (X (ix2 i k)).toReal, ?_⟩
  rw [coe_finset_sum]
  unfold sq
  refine Finset.sum_congr rfl fun k _ => ?_
  rw [EReal.coe_mul, EReal.coe_toReal (hX _).1 (hX _).2]

/-- An inner product of two rows of reals is a real. -/
theorem dot_real (X : Emb) (hX : ∀ idx, X idx ≠ ⊤ ∧ X idx ≠ ⊥) (i j : Fin 8192) : ∃ r : ℝ, dot X i j = (r : EReal) := by
  refine ⟨∑ k : Fin 512, (X (ix2 i k)).toReal * (X (ix2 j k)).toReal, ?_⟩
  rw [coe_finset_sum]
  unfold dot
  refine Finset.sum_congr rfl fun k _ => ?_
  rw [EReal.coe_mul, EReal.coe_toReal (hX _).1 (hX _).2, EReal.coe_toReal (hX _).1 (hX _).2]

/-- A squared distance between rows of reals is a real. -/
theorem d2_real (X : Emb) (hX : ∀ idx, X idx ≠ ⊤ ∧ X idx ≠ ⊥) (i j : Fin 8192) : ∃ r : ℝ, d2 X i j = (r : EReal) := by
  obtain ⟨a, ha⟩ := sq_real X hX i
  obtain ⟨b, hb⟩ := sq_real X hX j
  obtain ⟨c, hc⟩ := dot_real X hX i j
  unfold d2
  by_cases hij : i = j
  · rw [if_pos hij, zero_eq]
    exact ⟨0, EReal.coe_zero.symm⟩
  · obtain ⟨t, ht⟩ := two_real
    rw [if_neg hij, ha, hb, hc, ht, zero_eq]
    refine ⟨max (a + b - t * c) 0, ?_⟩
    rw [← EReal.coe_mul, ← EReal.coe_add, ← EReal.coe_sub, ← EReal.coe_zero]
    exact (EReal.coe_strictMono.monotone.map_max).symm

/-- A distance between rows of reals is never +∞. -/
theorem dist_ne_top (X : Emb) (hX : ∀ idx, X idx ≠ ⊤ ∧ X idx ≠ ⊥) (i j : Fin 8192) : dist X i j ≠ ⊤ := by
  obtain ⟨r, hr⟩ := d2_real X hX i j
  unfold dist
  rcases bv1_cases (nz X i j) with h | h
  · rw [h, select_zero, zero_eq]
    exact EReal.zero_ne_top
  · rw [h, select_one, select_one, hr, Ideal.sqrt_coe]
    split_ifs
    · exact bot_ne_top
    · exact EReal.coe_ne_top _

/-- A value that is not +∞, selected against +∞, lies below +∞ exactly when the selector is 1. -/
theorem select_lt_top_iff {c : BitVec 1} {a : EReal} (ha : a ≠ ⊤) : Scalar.select c a ⊤ < ⊤ ↔ c = 1#1 := by
  rcases bv1_cases c with h | h
  · rw [h, select_zero]
    simp
  · rw [h, select_one]
    simp [lt_top_iff_ne_top, ha]

/-- On real inputs the running minimum over the semi-hard negatives left +∞ exactly when some key is a semi-hard
    negative, so the two losses are the same. -/
theorem lossMin_eq_lossAny (X : Emb) (L : Lab) (hX : ∀ idx, X idx ≠ ⊤ ∧ X idx ≠ ⊥) (i : Fin 8192) :
    lossMin X L i = lossAny X L i := by
  have key : Ideal.cmp .olt (hs X L i) ⊤
      = (Finset.univ : Finset (Fin 8192)).fold IntOp.ori 0#1 fun j => semi X L i j := by
    refine bv1_eq_of_iff ?_
    rw [cmp_olt_eq_one, fold_ori_eq_one]
    unfold hs
    rw [fold_min_eq_inf, Finset.inf_lt_iff]
    constructor
    · rintro ⟨j, hj, hlt⟩
      exact ⟨j, hj, (select_lt_top_iff (dist_ne_top X hX i j)).1 hlt⟩
    · rintro ⟨j, hj, hone⟩
      exact ⟨j, hj, (select_lt_top_iff (dist_ne_top X hX i j)).2 hone⟩
  unfold lossMin lossAny
  rw [key]

end Cert.Triplet

end
-- ==== Proof.KIBlocks.lean ====
/-
  What each block and each load holds, in the coordinates of the whole arrays.

  The anchors' windows hand point t the 128 rows 128 t … 128 t + 127 of the embedding matrix and the matching 128
  labels; the keys' windows hand every point the whole matrix and the whole label vector. Inside a point, a load of a
  whole buffer returns what the buffer holds, and the load at step k of a sweep returns rows 1024 k … 1024 k + 1023 of
  the keys (entries, for the labels). A position inside a block is the block's index times the block's size plus the
  position inside the block; the block indices are computed once for all 64 points.
-/
import proofs.«120611_j52630529245412_2_alg».proof.Proof.KIData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Counting facts -/

/-- The grid has 64 points, so a point's number is below 64. -/
theorem point_lt (t : Fin cfg0.N) : t.val < 64 := Nat.lt_of_lt_of_eq t.isLt N_0

/-- Each sweep over the keys has at most eight steps. -/
theorem step1_lt (k : Fin k0_t1_loop.trips) : k.val < 8 := Nat.lt_of_lt_of_le k.isLt k0_t1_abs.2.1
theorem step2_lt (k : Fin k0_t2_loop.trips) : k.val < 8 := Nat.lt_of_lt_of_le k.isLt k0_t2_abs.2.1

theorem zeros2 : (![0, 0] : Fin 2 → Nat) = fun _ => 0 := funext fun a => by fin_cases a <;> rfl
theorem zeros1 : (![0] : Fin 1 → Nat) = fun _ => 0 := funext fun a => by fin_cases a <;> rfl

/-- The block index of each input window at each grid point: the anchors' windows move one block of 128 rows per
    point; the keys' windows stay at the one block that is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val ∧ win0_3.index t (0 : Fin 1) = 0 :=
  (by decide +kernel : ∀ t : Fin grid0.N, _)

/-! ## A load of a whole buffer -/

/-- Loading all 128 × 512 entries of a whole buffer gives back what the buffer holds. -/
theorem load_all_rows (arg : Memref sig .tc .vmem S128x512 .f32) (harg : arg.IsWhole) (x : Vec F S128x512 .f32) :
    View.readAt (Elt F) arg.view (Rect.unit (s := S128x512) ![0, 0] S128x512.size inb_S128x512_S128x512_0_0).toLoadRect (harg.unread x) = x := by
  rw [View.readAt_eq_ld, harg.read_unread, View.ld_unit_zero (S := S128x512) zeros2]

/-- Loading all 128 entries of a whole buffer of labels gives back what the buffer holds. -/
theorem load_all_labels (arg : Memref sig .tc .vmem S128 .i32) (harg : arg.IsWhole) (x : Vec F S128 .i32) :
    View.readAt (Elt F) arg.view (Rect.unit (s := S128) ![0] S128.size inb_S128_S128_0).toLoadRect (harg.unread x) = x := by
  rw [View.readAt_eq_ld, harg.read_unread, View.ld_unit_zero (S := S128) zeros1]

/-! ## The windows' blocks in whole-array coordinates -/

/-- The anchors' block at point t is rows 128 t … 128 t + 127 of the embedding matrix. -/
theorem iblk0_apply (c : Dev nD) (t : Fin cfg0.N) (r : Fin 128) (q : Fin 512) :
    (iblk m c 0 t : Vec F S128x512 .f32) (ix2 r q)
      = (V m c main_arg0 : S8192x512.Idx → Elt F .f32) (ix2 ⟨128 * t.val + r.val, by have := point_lt t; have := r.isLt; omega⟩ q) := by
  obtain ⟨e0, e1, -⟩ := index_facts t
  unfold iblk
  rw [View.read_apply]
  show V m c main_arg0 _ = V m c main_arg0 _
  congr 1
  funext a
  apply Fin.ext
  match a with
  | ⟨0, _⟩ => show win0_0.index t (0 : Fin 2) * 128 + 1 * r.val = 128 * t.val + r.val; omega
  | ⟨1, _⟩ => show win0_0.index t (1 : Fin 2) * 512 + 1 * q.val = q.val; omega

/-- The keys' block is the whole embedding matrix at every point. -/
theorem iblk1_apply (c : Dev nD) (t : Fin cfg0.N) (j : Fin 8192) (q : Fin 512) :
    (iblk m c 1 t : Vec F S8192x512 .f32) (ix2 j q) = (V m c main_arg0 : S8192x512.Idx → Elt F .f32) (ix2 j q) := by
  obtain ⟨-, -, e0, e1, -⟩ := index_facts t
  unfold iblk
  rw [View.read_apply]
  show V m c main_arg0 _ = V m c main_arg0 _
  congr 1
  funext a
  apply Fin.ext
  match a with
  | ⟨0, _⟩ => show win0_1.index t (0 : Fin 2) * 8192 + 1 * j.val = j.val; omega
  | ⟨1, _⟩ => show win0_1.index t (1 : Fin 2) * 512 + 1 * q.val = q.val; omega

/-- The anchors' labels at point t are entries 128 t … 128 t + 127 of the label vector. -/
theorem iblk2_apply (c : Dev nD) (t : Fin cfg0.N) (r : Fin 128) :
    (iblk m c 2 t : Vec F S128 .i32) (ix1 r)
      = (V m c main_arg1 : S8192.Idx → Elt F .i32) (ix1 ⟨128 * t.val + r.val, by have := point_lt t; have := r.isLt; omega⟩) := by
  obtain ⟨-, -, -, -, e0, -⟩ := index_facts t
  unfold iblk
  rw [View.read_apply]
  show V m c main_arg1 _ = V m c main_arg1 _
  congr 1
  funext a
  apply Fin.ext
  match a with
  | ⟨0, _⟩ => show win0_2.index t (0 : Fin 1) * 128 + 1 * r.val = 128 * t.val + r.val; omega

/-- The keys' labels are the whole label vector at every point. -/
theorem iblk3_apply (c : Dev nD) (t : Fin cfg0.N) (j : Fin 8192) :
    (iblk m c 3 t : Vec F S8192 .i32) (ix1 j) = (V m c main_arg1 : S8192.Idx → Elt F .i32) (ix1 j) := by
  obtain ⟨-, -, -, -, -, e0⟩ := index_facts t
  unfold iblk
  rw [View.read_apply]
  show V m c main_arg1 _ = V m c main_arg1 _
  congr 1
  funext a
  apply Fin.ext
  match a with
  | ⟨0, _⟩ => show win0_3.index t (0 : Fin 1) * 8192 + 1 * j.val = j.val; omega

/-! ## A load of one tile of keys -/

/-- The first sweep's load at step k reads rows 1024 k … 1024 k + 1023 of the keys. -/
theorem load_keys1 (arg2 : Memref sig .tc .vmem S8192x512 .f32) (harg2 : arg2.IsWhole) (X2 : Vec F S8192x512 .f32)
    (k : Fin k0_t1_loop.trips) (c' : Fin 1024) (q : Fin 512) :
    View.readAt (Elt F) arg2.view (Rect.unit (s := S8192x512) (k0_off1 k) S1024x512.size (k0_off1_inb k)).toLoadRect (harg2.unread X2) (ix2 c' q)
      = X2 (ix2 ⟨1024 * k.val + c'.val, by have := step1_lt k; have := c'.isLt; omega⟩ q) := by
  have e0 : k0_off1 k 0 = 1024 * k.val := congrFun (k0_off1_eq k) 0
  have e1 : k0_off1 k 1 = 0 := congrFun (k0_off1_eq k) 1
  rw [View.readAt_eq_ld, harg2.read_unread]
  show X2 _ = X2 _
  congr 1
  funext a
  apply Fin.ext
  match a with
  | ⟨0, _⟩ => show k0_off1 k 0 + 1 * c'.val = 1024 * k.val + c'.val; omega
  | ⟨1, _⟩ => show k0_off1 k 1 + 1 * q.val = q.val; omega

/-- The second sweep's load at step k reads the same rows. -/
theorem load_keys2 (arg2 : Memref sig .tc .vmem S8192x512 .f32) (harg2 : arg2.IsWhole) (X2 : Vec F S8192x512 .f32)
    (k : Fin k0_t2_loop.trips) (c' : Fin 1024) (q : Fin 512) :
    View.readAt (Elt F) arg2.view (Rect.unit (s := S8192x512) (k0_off3 k) S1024x512.size (k0_off3_inb k)).toLoadRect (harg2.unread X2) (ix2 c' q)
      = X2 (ix2 ⟨1024 * k.val + c'.val, by have := step2_lt k; have := c'.isLt; omega⟩ q) := by
  have e0 : k0_off3 k 0 = 1024 * k.val := congrFun (k0_off3_eq k) 0
  have e1 : k0_off3 k 1 = 0 := congrFun (k0_off3_eq k) 1
  rw [View.readAt_eq_ld, harg2.read_unread]
  show X2 _ = X2 _
  congr 1
  funext a
  apply Fin.ext
  match a with
  | ⟨0, _⟩ => show k0_off3 k 0 + 1 * c'.val = 1024 * k.val + c'.val; omega
  | ⟨1, _⟩ => show k0_off3 k 1 + 1 * q.val = q.val; omega

/-- The first sweep's load of labels at step k reads entries 1024 k … 1024 k + 1023. -/
theorem load_labels1 (arg4 : Memref sig .tc .vmem S8192 .i32) (harg4 : arg4.IsWhole) (X4 : Vec F S8192 .i32)
    (k : Fin k0_t1_loop.trips) (c' : Fin 1024) :
    View.readAt (Elt F) arg4.view (Rect.unit (s := S8192) (k0_off2 k) S1024.size (k0_off2_inb k)).toLoadRect (harg4.unread X4) (ix1 c')
      = X4 (ix1 ⟨1024 * k.val + c'.val, by have := step1_lt k; have := c'.isLt; omega⟩) := by
  have e0 : k0_off2 k 0 = 1024 * k.val := congrFun (k0_off2_eq k) 0
  rw [View.readAt_eq_ld, harg4.read_unread]
  show X4 _ = X4 _
  congr 1
  funext a
  apply Fin.ext
  match a with
  | ⟨0, _⟩ => show k0_off2 k 0 + 1 * c'.val = 1024 * k.val + c'.val; omega

/-- The second sweep's load of labels at step k reads the same entries. -/
theorem load_labels2 (arg4 : Memref sig .tc .vmem S8192 .i32) (harg4 : arg4.IsWhole) (X4 : Vec F S8192 .i32)
    (k : Fin k0_t2_loop.trips) (c' : Fin 1024) :
    View.readAt (Elt F) arg4.view (Rect.unit (s := S8192) (k0_off4 k) S1024.size (k0_off4_inb k)).toLoadRect (harg4.unread X4) (ix1 c')
      = X4 (ix1 ⟨1024 * k.val + c'.val, by have := step2_lt k; have := c'.isLt; omega⟩) := by
  have e0 : k0_off4 k 0 = 1024 * k.val := congrFun (k0_off4_eq k) 0
  rw [View.readAt_eq_ld, harg4.read_unread]
  show X4 _ = X4 _
  congr 1
  funext a
  apply Fin.ext
  match a with
  | ⟨0, _⟩ => show k0_off4 k 0 + 1 * c'.val = 1024 * k.val + c'.val; omega

/-! ## The anchors' first row, as a word -/

/-- The one grid coordinate of point t is t. -/
theorem coord_eq : ∀ t : Fin cfg0.N, ((grid0.coords t) 0).val = t.val :=
  (by decide +kernel : ∀ t : Fin grid0.N, _)

/-- The word the body computes for the anchors' first row: 128 times the point's number. -/
theorem anchor_word : ∀ t : Fin cfg0.N,
    Scalar.muli (BitVec.ofNat 32 ((grid0.coords t) 0).val) 128#32 = BitVec.ofNat 32 (128 * t.val) :=
  (by decide +kernel : ∀ t : Fin grid0.N, _)

end Cert.KernelIdeal.Hand

end
-- ==== Proof.KPay.lean ====
/-
  The triplet kernel's arithmetic read at one index, on the extended reals.

  One grid point t handles the 128 anchor rows i = 128·t + r, and one loop trip k the 1024 keys j = 1024·k + c.
  The trip computes the tile of squared distances from three row sums (the anchors' squares, the keys' squares,
  and the products anchor·key as one matrix product with the transposed key tile), zeroes the diagonal by comparing
  the two global positions as 32-bit words, takes the guarded square root, and folds a masked row maximum or
  minimum into the running value. Each of these is read here at the index (r, c) and identified with the
  specification's d2 / nz / dist / same / neg at (i, j); a row reduction becomes a fold over the 1024 columns.
-/
import proofs.«120611_j52630529245412_2_alg».proof.Proof.Gen.KernelIdeal.Skeleton
import proofs.«120611_j52630529245412_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Triplet.Pay

open Idealize.ShloMosaic Idealize.ShloMosaic.ValueIdx
open Cert.KernelIdeal Cert.KernelIdeal.Gen

/-! ## Integer and root operations read at an index (all by definition) -/

section Pointwise
variable {s : Shape} {w : Nat}

theorem addi_apply (a b : IVec s w) (i : s.Idx) : addi a b i = IntOp.addi (a i) (b i) := rfl
theorem andi_apply (a b : IVec s w) (i : s.Idx) : andi a b i = IntOp.andi (a i) (b i) := rfl
theorem xori_apply (a b : IVec s w) (i : s.Idx) : xori a b i = IntOp.xori (a i) (b i) := rfl
theorem cmpi_apply (p : CmpIPredicate) (a b : IVec s w) (i : s.Idx) : cmpi p a b i = IntOp.cmpi p (a i) (b i) := rfl
theorem sqrt_apply {φ : FTy} (a : FVec Ideal s φ) (i : s.Idx) : sqrt a i = Ideal.sqrt (a i) := rfl

end Pointwise

/-! ## Two keepdims layouts: a vector as a column, and a column spread over the columns -/

/-- A vector viewed as a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(i, c)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- Both together: a vector spread as a column over the columns reads, at `(i, c)`, the vector at `i`. -/
theorem column_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (i : Fin a) (c : Fin b) :
    broadcastTo ⟨2, ![a, b]⟩ (shapeCast ⟨2, ![a, 1]⟩ x h) h' (ix2 i c) = x (ix1 i) :=
  (broadcastTo_a1_ab_apply _ h' i c).trans (shapeCast_a_a1_apply x h i 0)

/-- A vector spread as a row over the rows reads, at `(i, c)`, the vector at `c`. -/
theorem row_apply {α : Type} {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (i : Fin a) (c : Fin b) :
    broadcastTo ⟨2, ![a, b]⟩ (shapeCast ⟨2, ![1, b]⟩ x h) h' (ix2 i c) = x (ix1 c) :=
  (broadcastTo_1b_ab_apply _ h' i c).trans (shapeCast_a_1a_apply x h 0 c)

/-! ## The row sums, and the product of the anchors' block with the transposed key tile -/

/-- The anchors' sum of squares along the features, at row `r`. -/
theorem sqRow_apply (x1 : Vec Ideal S128x512 .f32) (r : Fin 128) :
    k0_pay2 (F := Ideal) x1 (ix1 r) = ∑ q : Fin 512, x1 (ix2 r q) * x1 (ix2 r q) := by
  unfold k0_pay2
  refine (Ideal.multiReduction_add_single (mulf x1 x1) 0x00000000#32 reduces_S128x512_S128 _ _ (ix1 r)).trans ?_
  refine Finset.sum_congr rfl fun q _ => ?_
  have e : reduces_S128x512_S128.lift (ix1 r) q = ix2 r q := funext fun a => Fin.ext (by
    match a with
    | ⟨0, _⟩ => rfl
    | ⟨1, _⟩ => rfl)
  rw [e]; rfl

/-- The key tile's sum of squares along the features, at key `c`. -/
theorem sqKey_apply (v25 : Vec Ideal S1024x512 .f32) (c : Fin 1024) :
    multiReduction (F := Ideal) .add [1] S1024 (mulf v25 v25) 0x00000000#32 reduces_S1024x512_S1024 (.inl rfl) rfl (ix1 c)
      = ∑ q : Fin 512, v25 (ix2 c q) * v25 (ix2 c q) := by
  refine (Ideal.multiReduction_add_single (mulf v25 v25) 0x00000000#32 reduces_S1024x512_S1024 _ _ (ix1 c)).trans ?_
  refine Finset.sum_congr rfl fun q _ => ?_
  have e : reduces_S1024x512_S1024.lift (ix1 c) q = ix2 c q := funext fun a => Fin.ext (by
    match a with
    | ⟨0, _⟩ => rfl
    | ⟨1, _⟩ => rfl)
  rw [e]; rfl

/-- The product's dimension numbers: rows of the left operand, columns of the right, one contracted axis. -/
abbrev DD : DotDims S128x512 S512x1024 S128x1024 := dot_S128x512_S512x1024_S128x1024_1_0_0_1_n_n

theorem mm_lhs0 (j : S128x1024.Idx) (q : DD.contr.Idx) : (DD.lhsIdx j q 0).val = (j 0).val := by
  unfold DotDims.lhsIdx
  rw [dif_neg (show ¬(0 : Fin S128x512.rank) ∈ DD.lhsBatch by decide),
    dif_pos (show (0 : Fin S128x512.rank) ∈ DD.lhsNonContracting by decide)]
  rfl
theorem mm_lhs1 (j : S128x1024.Idx) (q : DD.contr.Idx) : (DD.lhsIdx j q 1).val = (q ⟨0, by decide⟩).val :=
  DD.lhsIdx_val_of_single rfl j q
theorem mm_rhs0 (j : S128x1024.Idx) (q : DD.contr.Idx) : (DD.rhsIdx j q 0).val = (q ⟨0, by decide⟩).val :=
  DD.rhsIdx_val_of_single rfl j q
theorem mm_rhs1 (j : S128x1024.Idx) (q : DD.contr.Idx) : (DD.rhsIdx j q 1).val = (j 1).val := by
  unfold DotDims.rhsIdx
  rw [dif_neg (show ¬(1 : Fin S512x1024.rank) ∈ DD.rhsBatch by decide),
    dif_pos (show (1 : Fin S512x1024.rank) ∈ DD.rhsNonContracting by decide)]
  rfl

/-- The anchors' block times the transposed key tile, into zero: at `(r, c)` the sum over the features of anchor `r`
    times key `c` (rounding to bf16 on the way in is the identity on the extended reals). -/
theorem mm_apply (x1 : Vec Ideal S128x512 .f32) (v25 : Vec Ideal S1024x512 .f32) (r : Fin 128) (c : Fin 1024) :
    matmul (F := Ideal) dot_S128x512_S512x1024_S128x1024_1_0_0_1_n_n none (k0_pay1 x1)
        (transpose S512x1024 [1, 0] (truncf .bf16 v25 bitsLt_bf16_f32) transposes_S1024x512_p1_0_S512x1024)
        (constant S128x1024 .f32 0x00000000#32) (ix2 r c)
      = ∑ q : Fin 512, x1 (ix2 r q) * v25 (ix2 c q) := by
  simp only [matmul]
  rw [Ideal.matmul_constant_zero_apply, ← Equiv.sum_comp (contrEquiv1 DD 512 rfl rfl).symm]
  refine Finset.sum_congr rfl fun q _ => ?_
  have hq := contrEquiv1_symm_val DD 512 rfl rfl q
  have el : DD.lhsIdx (ix2 r c) ((contrEquiv1 DD 512 rfl rfl).symm q) = ix2 r q :=
    funext fun a => Fin.ext (by
      match a with
      | ⟨0, _⟩ => exact mm_lhs0 _ _
      | ⟨1, _⟩ => exact (mm_lhs1 _ _).trans hq)
  have er : DD.rhsIdx (ix2 r c) ((contrEquiv1 DD 512 rfl rfl).symm q) = ix2 q c :=
    funext fun a => Fin.ext (by
      match a with
      | ⟨0, _⟩ => exact (mm_rhs0 _ _).trans hq
      | ⟨1, _⟩ => exact mm_rhs1 _ _)
  rw [el, er, transpose_ix2_apply]
  rfl

/-! ## The two global positions as 32-bit words -/

/-- The anchor row `128·t + r` of grid point `t`. -/
abbrev rowOf (t : Fin 64) (r : Fin 128) : Fin 8192 :=
  ⟨128 * t.val + r.val, by have := t.isLt; have := r.isLt; omega⟩
/-- The key `1024·k + c` of trip `k`. -/
abbrev keyOf (k : Fin 8) (c : Fin 1024) : Fin 8192 :=
  ⟨1024 * k.val + c.val, by have := k.isLt; have := c.isLt; omega⟩

/-- The anchors' position as a word: the product and the sum stay below 2³², so nothing wraps. -/
theorem rowWord (t : Fin 64) (r : Fin 128) :
    IntOp.addi (Scalar.muli (BitVec.ofNat 32 t.val) 128#32) (BitVec.ofNat 32 r.val)
      = BitVec.ofNat 32 (128 * t.val + r.val) := by
  apply BitVec.eq_of_toNat_eq
  have := t.isLt; have := r.isLt
  simp only [IntOp.addi, Scalar.muli, IntOp.muli, BitVec.toNat_add, BitVec.toNat_mul, BitVec.toNat_ofNat]
  omega

/-- The keys' position as a word, from the trip's induction variable. -/
theorem keyWord (k : Fin 8) (c : Fin 1024) :
    IntOp.addi (Scalar.muli (Scf.iv 0#32 1#32 k.val) 1024#32) (BitVec.ofNat 32 c.val)
      = BitVec.ofNat 32 (1024 * k.val + c.val) := by
  apply BitVec.eq_of_toNat_eq
  have := k.isLt; have := c.isLt
  simp only [IntOp.addi, Scalar.muli, IntOp.muli, Scf.iv, BitVec.toNat_add, BitVec.toNat_mul, BitVec.toNat_ofNat]
  omega

/-- A select on the comparison of two words is the `if` on their equality. -/
theorem select_cmpi_eq {α : Type} (x y : BitVec 32) (A B : α) :
    Scalar.select (IntOp.cmpi .eq x y) A B = if x = y then A else B := by
  by_cases h : x = y
  · subst h; simp [Scalar.select, IntOp.cmpi]
  · have hb : (x == y) = false := by simpa using h
    simp [Scalar.select, IntOp.cmpi, hb, h]

/-- A select on "the two positions are the same word" is the `if` on the two rows being the same row. -/
theorem diag_select {α : Type} (t : Fin 64) (r : Fin 128) (k : Fin 8) (c : Fin 1024) (A B : α) :
    Scalar.select (IntOp.cmpi .eq
        (IntOp.addi (Scalar.muli (BitVec.ofNat 32 t.val) 128#32) (BitVec.ofNat 32 r.val))
        (IntOp.addi (Scalar.muli (Scf.iv 0#32 1#32 k.val) 1024#32) (BitVec.ofNat 32 c.val))) A B
      = if rowOf t r = keyOf k c then A else B := by
  rw [rowWord, keyWord, select_cmpi_eq]
  have := t.isLt; have := r.isLt; have := k.isLt; have := c.isLt
  have hiff : (BitVec.ofNat 32 (128 * t.val + r.val) = BitVec.ofNat 32 (1024 * k.val + c.val)) ↔ rowOf t r = keyOf k c := by
    constructor
    · intro e
      have e' := congrArg BitVec.toNat e
      simp only [BitVec.toNat_ofNat] at e'
      exact Fin.ext (by show 128 * t.val + r.val = 1024 * k.val + c.val; omega)
    · intro h
      have hv : 128 * t.val + r.val = 1024 * k.val + c.val := congrArg Fin.val h
      rw [hv]
  exact if_congr hiff rfl rfl

theorem iota0_apply (r : Fin 128) (c : Fin 1024) :
    iota .tc S128x1024 32 [0] iota_S128x1024_d0_w32 (ix2 r c) = BitVec.ofNat 32 r.val :=
  iota_single_apply .tc S128x1024 32 0 iota_S128x1024_d0_w32 (ix2 r c)
theorem iota1_apply (r : Fin 128) (c : Fin 1024) :
    iota .tc S128x1024 32 [1] iota_S128x1024_d1_w32 (ix2 r c) = BitVec.ofNat 32 c.val :=
  iota_single_apply .tc S128x1024 32 1 iota_S128x1024_d1_w32 (ix2 r c)

/-! ## The trip's tiles, named -/

/-- The trip's squared distances with the diagonal zeroed, from the anchors' block, the key tile, and the two first
    positions `v0` (anchors) and `w` (keys) as words: `‖a‖² + ‖b‖² − 2·a·b` clipped at zero, and zero where the positions agree. -/
def d2T (v0 : BitVec 32) (x1 : Vec Ideal S128x512 .f32) (w : BitVec 32) (v25 : Vec Ideal S1024x512 .f32) :
    FVec Ideal S128x1024 .f32 :=
  select
    (cmpi .eq (addi (broadcast S128x1024 v0) (iota .tc S128x1024 32 [0] iota_S128x1024_d0_w32))
      (addi (broadcast S128x1024 w) (iota .tc S128x1024 32 [1] iota_S128x1024_d1_w32)))
    (broadcast S128x1024 (Scalar.ofBits (F := Ideal) .f32 0x00000000#32))
    (maximumf
      (subf
        (addf
          (broadcastTo S128x1024 (shapeCast S128x1 (k0_pay2 (F := Ideal) x1) shapeCasts_S128_S128x1) broadcasts_S128x1_S128x1024)
          (broadcastTo S128x1024
            (shapeCast S1x1024
              (multiReduction (F := Ideal) .add [1] S1024 (mulf v25 v25) 0x00000000#32 reduces_S1024x512_S1024 (.inl rfl) rfl)
              shapeCasts_S1024_S1x1024)
            broadcasts_S1x1024_S128x1024))
        (mulf (broadcast S128x1024 (Scalar.ofBits (F := Ideal) .f32 0x40000000#32))
          (matmul (F := Ideal) dot_S128x512_S512x1024_S128x1024_1_0_0_1_n_n none (k0_pay1 x1)
            (transpose S512x1024 [1, 0] (truncf .bf16 v25 bitsLt_bf16_f32) transposes_S1024x512_p1_0_S512x1024)
            (constant S128x1024 .f32 0x00000000#32))))
      (broadcast S128x1024 (Scalar.ofBits (F := Ideal) .f32 0x00000000#32)))

/-- Where a tile of squared distances is positive. -/
def nzT (d : FVec Ideal S128x1024 .f32) : IVec S128x1024 1 :=
  cmpf .ogt d (broadcast S128x1024 (Scalar.ofBits (F := Ideal) .f32 0x00000000#32))

/-- The guarded square root of a tile of squared distances: the root where positive (fed 1 elsewhere), else zero. -/
def distT (d : FVec Ideal S128x1024 .f32) : FVec Ideal S128x1024 .f32 :=
  select (nzT d) (sqrt (select (nzT d) d (broadcast S128x1024 (Scalar.ofBits (F := Ideal) .f32 0x3F800000#32))))
    (broadcast S128x1024 (Scalar.ofBits (F := Ideal) .f32 0x00000000#32))

/-- Where the anchor's label is the key's. -/
def sameT (v5 : Vec Ideal S128 .i32) (v58 : Vec Ideal S1024 .i32) : IVec S128x1024 1 :=
  cmpi .eq (broadcastTo S128x1024 (shapeCast S128x1 v5 shapeCasts_S128_S128x1) broadcasts_S128x1_S128x1024)
    (broadcastTo S128x1024 (shapeCast S1x1024 v58 shapeCasts_S1024_S1x1024) broadcasts_S1x1024_S128x1024)

/-- The trip's word for its first key. -/
abbrev keyBase (k : Fin 8) : BitVec 32 := Scalar.muli (Scf.iv 0#32 1#32 k.val) 1024#32

/-! The kernel's values `k0_pay9` … `k0_pay12` are these tiles, by definition. -/

theorem pay10_eq (v0 : BitVec 32) (x1 : Vec Ideal S128x512 .f32) (k : Fin 8) (v25 : Vec Ideal S1024x512 .f32) :
    k0_pay10 (F := Ideal) v0 (k0_pay1 x1) (k0_pay2 x1) 0#32 1#32 k v25 = distT (d2T v0 x1 (keyBase k) v25) := rfl

theorem pay11_eq (v5 : Vec Ideal S128 .i32) (v58 : Vec Ideal S1024 .i32) :
    k0_pay11 (F := Ideal) v5 v58 = xori (sameT v5 v58) (constantI S128x1024 1 1#1) := rfl

theorem pay12_eq (v0 : BitVec 32) (x1 : Vec Ideal S128x512 .f32) (v5 : Vec Ideal S128 .i32) (v8 : FVec Ideal S128 .f32)
    (k : Fin 8) (v25 : Vec Ideal S1024x512 .f32) (v58 : Vec Ideal S1024 .i32) :
    k0_pay12 (F := Ideal) v0 (k0_pay1 x1) (k0_pay2 x1) v5 v8 0#32 1#32 k v25 v58
      = andi (k0_pay11 (F := Ideal) v5 v58)
          (cmpf .ogt (k0_pay10 (F := Ideal) v0 (k0_pay1 x1) (k0_pay2 x1) 0#32 1#32 k v25)
            (broadcastTo S128x1024 (shapeCast S128x1 v8 shapeCasts_S128_S128x1) broadcasts_S128x1_S128x1024)) := rfl

theorem pay9_eq (v0 : BitVec 32) (x1 : Vec Ideal S128x512 .f32) (v5 : Vec Ideal S128 .i32) (k : Fin 8)
    (acc : FVec Ideal S128 .f32) (v25 : Vec Ideal S1024x512 .f32) (v58 : Vec Ideal S1024 .i32) :
    k0_pay9 (F := Ideal) v0 (k0_pay1 x1) (k0_pay2 x1) v5 0#32 1#32 k acc v25 v58
      = maximumf acc (multiReduction (F := Ideal) .maximumf [1] S128
          (select (andi (sameT v5 v58) (nzT (d2T v0 x1 (keyBase k) v25))) (distT (d2T v0 x1 (keyBase k) v25))
            (broadcast S128x1024 (Named.named (F := Ideal) κ "neg_big" (φ := .f32) 0xFF61B1E6#32)))
          0xFF800000#32 reduces_S128x1024_S128 (.inl rfl) rfl) := rfl

/-! ## The named constants and the reductions' initial words -/

theorem neg_big : Named.named (F := Ideal) κ "neg_big" (φ := .f32) 0xFF61B1E6#32 = (⊥ : EReal) :=
  IdealRules.named_const.ideal_named_scalar _ _ _ _ rfl
theorem pos_big : Named.named (F := Ideal) κ "pos_big" (φ := .f32) 0x7F61B1E6#32 = (⊤ : EReal) :=
  IdealRules.named_const.ideal_named_scalar _ _ _ _ rfl
theorem negInf_word : Ideal.ofBits .f32 0xFF800000#32 = (⊥ : EReal) := by simp [Ideal.ofBits, Ideal.ieee]
theorem posInf_word : Ideal.ofBits .f32 0x7F800000#32 = (⊤ : EReal) := by simp [Ideal.ofBits, Ideal.ieee]

/-! ## A row maximum and a row minimum as folds over the 1024 columns -/

theorem lift_row (r : Fin 128) (c : Fin 1024) : reduces_S128x1024_S128.lift (ix1 r) c = ix2 r c :=
  funext fun a => Fin.ext (by
    match a with
    | ⟨0, _⟩ => rfl
    | ⟨1, _⟩ => rfl)

theorem rowMax_apply (src : FVec Ideal S128x1024 .f32) (r : Fin 128) :
    multiReduction (F := Ideal) .maximumf [1] S128 src 0xFF800000#32 reduces_S128x1024_S128 (.inl rfl) rfl (ix1 r)
      = (Finset.univ : Finset (Fin 1024)).fold max ⊥ fun c => src (ix2 r c) := by
  refine (Ideal.multiReduction_maximumf_single src 0xFF800000#32 reduces_S128x1024_S128 _ _ (ix1 r)).trans ?_
  show (Finset.univ : Finset (Fin 1024)).fold max (Ideal.ofBits .f32 0xFF800000#32)
    (fun c => src (reduces_S128x1024_S128.lift (ix1 r) c)) = _
  rw [negInf_word]
  exact congrArg (fun f => (Finset.univ : Finset (Fin 1024)).fold max ⊥ f) (funext fun c => congrArg src (lift_row r c))

theorem rowMin_apply (src : FVec Ideal S128x1024 .f32) (r : Fin 128) :
    multiReduction (F := Ideal) .minimumf [1] S128 src 0x7F800000#32 reduces_S128x1024_S128 (.inl rfl) rfl (ix1 r)
      = (Finset.univ : Finset (Fin 1024)).fold min ⊤ fun c => src (ix2 r c) := by
  refine (multiReduction_minimumf_eq_fold src 0x7F800000#32 reduces_S128x1024_S128 _ _ (ix1 r)).trans ?_
  refine (reduces_S128x1024_S128.fold_filter_drop_single _ _ src (ix1 r)).trans ?_
  show (Finset.univ : Finset (Fin 1024)).fold min (Ideal.ofBits .f32 0x7F800000#32)
    (fun c => src (reduces_S128x1024_S128.lift (ix1 r) c)) = _
  rw [posInf_word]
  exact congrArg (fun f => (Finset.univ : Finset (Fin 1024)).fold min ⊤ f) (funext fun c => congrArg src (lift_row r c))

/-! ## The tiles read at `(r, c)` are the specification at `(i, j)` -/

theorem d2T_apply (X : Emb) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (r : Fin 128) (c : Fin 1024) :
    d2T v0 x1 (keyBase k) v25 (ix2 r c) = d2 X (rowOf t r) (keyOf k c) := by
  subst hv0
  unfold d2T
  simp only [select_apply, cmpi_apply, addi_apply, broadcast_apply, maximumf_apply, subf_apply, addf_apply, mulf_apply,
    iota0_apply, iota1_apply, column_apply, row_apply, sqRow_apply, sqKey_apply, mm_apply]
  rw [iota0_apply r c, iota1_apply r c, sqKey_apply v25 c, mm_apply x1 v25 r c]
  refine (diag_select t r k c _ _).trans ?_
  unfold d2 sq dot
  simp only [hx1, hv25]
  rfl

theorem nz_apply (X : Emb) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (r : Fin 128) (c : Fin 1024) :
    nzT (d2T v0 x1 (keyBase k) v25) (ix2 r c) = nz X (rowOf t r) (keyOf k c) := by
  show Ideal.cmp .ogt (d2T v0 x1 (keyBase k) v25 (ix2 r c)) zero = _
  rw [d2T_apply X t k v0 hv0 x1 hx1 v25 hv25]
  rfl

theorem dist_apply (X : Emb) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (r : Fin 128) (c : Fin 1024) :
    distT (d2T v0 x1 (keyBase k) v25) (ix2 r c) = dist X (rowOf t r) (keyOf k c) := by
  show Scalar.select (Ideal.cmp .ogt (d2T v0 x1 (keyBase k) v25 (ix2 r c)) zero)
    (Ideal.sqrt (Scalar.select (Ideal.cmp .ogt (d2T v0 x1 (keyBase k) v25 (ix2 r c)) zero)
      (d2T v0 x1 (keyBase k) v25 (ix2 r c)) one)) zero = _
  rw [d2T_apply X t k v0 hv0 x1 hx1 v25 hv25]
  rfl

theorem pay10_apply (X : Emb) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (r : Fin 128) (c : Fin 1024) :
    k0_pay10 (F := Ideal) v0 (k0_pay1 x1) (k0_pay2 x1) 0#32 1#32 k v25 (ix2 r c) = dist X (rowOf t r) (keyOf k c) := by
  rw [pay10_eq]
  exact dist_apply X t k v0 hv0 x1 hx1 v25 hv25 r c

theorem sameT_apply (L : Lab) (t : Fin 64) (k : Fin 8)
    (v5 : Vec Ideal S128 .i32) (hv5 : ∀ r, v5 (ix1 r) = L (ix1 (rowOf t r)))
    (v58 : Vec Ideal S1024 .i32) (hv58 : ∀ c, v58 (ix1 c) = L (ix1 (keyOf k c)))
    (r : Fin 128) (c : Fin 1024) :
    sameT v5 v58 (ix2 r c) = same L (rowOf t r) (keyOf k c) := by
  unfold sameT
  simp only [cmpi_apply, column_apply, row_apply, hv5, hv58]
  rfl

theorem pay11_apply (L : Lab) (t : Fin 64) (k : Fin 8)
    (v5 : Vec Ideal S128 .i32) (hv5 : ∀ r, v5 (ix1 r) = L (ix1 (rowOf t r)))
    (v58 : Vec Ideal S1024 .i32) (hv58 : ∀ c, v58 (ix1 c) = L (ix1 (keyOf k c)))
    (r : Fin 128) (c : Fin 1024) :
    k0_pay11 (F := Ideal) v5 v58 (ix2 r c) = neg L (rowOf t r) (keyOf k c) := by
  rw [pay11_eq]
  show IntOp.xori (sameT v5 v58 (ix2 r c)) 1#1 = _
  rw [sameT_apply L t k v5 hv5 v58 hv58]
  rfl

theorem pay12_apply (X : Emb) (L : Lab) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (v5 : Vec Ideal S128 .i32) (hv5 : ∀ r, v5 (ix1 r) = L (ix1 (rowOf t r)))
    (v58 : Vec Ideal S1024 .i32) (hv58 : ∀ c, v58 (ix1 c) = L (ix1 (keyOf k c)))
    (v8 : FVec Ideal S128 .f32) (r : Fin 128) (c : Fin 1024) :
    k0_pay12 (F := Ideal) v0 (k0_pay1 x1) (k0_pay2 x1) v5 v8 0#32 1#32 k v25 v58 (ix2 r c)
      = IntOp.andi (neg L (rowOf t r) (keyOf k c)) (Ideal.cmp .ogt (dist X (rowOf t r) (keyOf k c)) (v8 (ix1 r))) := by
  rw [pay12_eq]
  show IntOp.andi (k0_pay11 (F := Ideal) v5 v58 (ix2 r c))
    (Ideal.cmp .ogt (k0_pay10 (F := Ideal) v0 (k0_pay1 x1) (k0_pay2 x1) 0#32 1#32 k v25 (ix2 r c))
      (broadcastTo S128x1024 (shapeCast S128x1 v8 shapeCasts_S128_S128x1) broadcasts_S128x1_S128x1024 (ix2 r c))) = _
  rw [pay11_apply L t k v5 hv5 v58 hv58, pay10_apply X t k v0 hv0 x1 hx1 v25 hv25, column_apply]

/-! ## The two sweeps' trips, the last arithmetic, and the initial values -/

/-- One trip of the first sweep: the running maximum takes in the tile's hardest positive. -/
theorem pay9_apply (X : Emb) (L : Lab) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (v5 : Vec Ideal S128 .i32) (hv5 : ∀ r, v5 (ix1 r) = L (ix1 (rowOf t r)))
    (v58 : Vec Ideal S1024 .i32) (hv58 : ∀ c, v58 (ix1 c) = L (ix1 (keyOf k c)))
    (acc : FVec Ideal S128 .f32) (r : Fin 128) :
    k0_pay9 (F := Ideal) v0 (k0_pay1 x1) (k0_pay2 x1) v5 0#32 1#32 k acc v25 v58 (ix1 r)
      = max (acc (ix1 r)) ((Finset.univ : Finset (Fin 1024)).fold max ⊥ fun c =>
          Scalar.select (IntOp.andi (same L (rowOf t r) (keyOf k c)) (nz X (rowOf t r) (keyOf k c)))
            (dist X (rowOf t r) (keyOf k c)) ⊥) := by
  rw [pay9_eq]
  show max (acc (ix1 r)) (multiReduction (F := Ideal) .maximumf [1] S128
      (select (andi (sameT v5 v58) (nzT (d2T v0 x1 (keyBase k) v25))) (distT (d2T v0 x1 (keyBase k) v25))
        (broadcast S128x1024 (Named.named (F := Ideal) κ "neg_big" (φ := .f32) 0xFF61B1E6#32)))
      0xFF800000#32 reduces_S128x1024_S128 (.inl rfl) rfl (ix1 r)) = _
  refine congrArg (max (acc (ix1 r))) ?_
  refine (rowMax_apply _ r).trans ?_
  refine congrArg (fun f => (Finset.univ : Finset (Fin 1024)).fold max ⊥ f) (funext fun c => ?_)
  show Scalar.select (IntOp.andi (sameT v5 v58 (ix2 r c)) (nzT (d2T v0 x1 (keyBase k) v25) (ix2 r c)))
    (distT (d2T v0 x1 (keyBase k) v25) (ix2 r c)) (Named.named (F := Ideal) κ "neg_big" (φ := .f32) 0xFF61B1E6#32) = _
  rw [sameT_apply L t k v5 hv5 v58 hv58, nz_apply X t k v0 hv0 x1 hx1 v25 hv25, dist_apply X t k v0 hv0 x1 hx1 v25 hv25, neg_big]

/-- One trip of the second sweep, first carried value: the running minimum takes in the tile's hardest semi-hard negative
    (a negative farther than the hardest positive `v8`). -/
theorem pay6_apply (X : Emb) (L : Lab) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (v5 : Vec Ideal S128 .i32) (hv5 : ∀ r, v5 (ix1 r) = L (ix1 (rowOf t r)))
    (v58 : Vec Ideal S1024 .i32) (hv58 : ∀ c, v58 (ix1 c) = L (ix1 (keyOf k c)))
    (arg7 v8 : FVec Ideal S128 .f32) (r : Fin 128) :
    k0_pay6 (F := Ideal) arg7 (k0_pay10 (F := Ideal) v0 (k0_pay1 x1) (k0_pay2 x1) 0#32 1#32 k v25)
        (k0_pay12 (F := Ideal) v0 (k0_pay1 x1) (k0_pay2 x1) v5 v8 0#32 1#32 k v25 v58)
        (Named.named (F := Ideal) κ "pos_big" (φ := .f32) 0x7F61B1E6#32) (ix1 r)
      = min (arg7 (ix1 r)) ((Finset.univ : Finset (Fin 1024)).fold min ⊤ fun c =>
          Scalar.select (IntOp.andi (neg L (rowOf t r) (keyOf k c)) (Ideal.cmp .ogt (dist X (rowOf t r) (keyOf k c)) (v8 (ix1 r))))
            (dist X (rowOf t r) (keyOf k c)) ⊤) := by
  show min (arg7 (ix1 r)) (multiReduction (F := Ideal) .minimumf [1] S128
      (select (k0_pay12 (F := Ideal) v0 (k0_pay1 x1) (k0_pay2 x1) v5 v8 0#32 1#32 k v25 v58)
        (k0_pay10 (F := Ideal) v0 (k0_pay1 x1) (k0_pay2 x1) 0#32 1#32 k v25)
        (broadcast S128x1024 (Named.named (F := Ideal) κ "pos_big" (φ := .f32) 0x7F61B1E6#32)))
      0x7F800000#32 reduces_S128x1024_S128 (.inl rfl) rfl (ix1 r)) = _
  refine congrArg (min (arg7 (ix1 r))) ?_
  refine (rowMin_apply _ r).trans ?_
  refine congrArg (fun f => (Finset.univ : Finset (Fin 1024)).fold min ⊤ f) (funext fun c => ?_)
  show Scalar.select (k0_pay12 (F := Ideal) v0 (k0_pay1 x1) (k0_pay2 x1) v5 v8 0#32 1#32 k v25 v58 (ix2 r c))
    (k0_pay10 (F := Ideal) v0 (k0_pay1 x1) (k0_pay2 x1) 0#32 1#32 k v25 (ix2 r c))
    (Named.named (F := Ideal) κ "pos_big" (φ := .f32) 0x7F61B1E6#32) = _
  rw [pay12_apply X L t k v0 hv0 x1 hx1 v25 hv25 v5 hv5 v58 hv58, pay10_apply X t k v0 hv0 x1 hx1 v25 hv25, pos_big]

/-- One trip of the second sweep, second carried value: the running minimum takes in the tile's hardest negative. -/
theorem pay7_apply (X : Emb) (L : Lab) (t : Fin 64) (k : Fin 8) (v0 : BitVec 32) (hv0 : v0 = Scalar.muli (BitVec.ofNat 32 t.val) 128#32)
    (x1 : Vec Ideal S128x512 .f32) (hx1 : ∀ r q, x1 (ix2 r q) = X (ix2 (rowOf t r) q))
    (v25 : Vec Ideal S1024x512 .f32) (hv25 : ∀ c q, v25 (ix2 c q) = X (ix2 (keyOf k c) q))
    (v5 : Vec Ideal S128 .i32) (hv5 : ∀ r, v5 (ix1 r) = L (ix1 (rowOf t r)))
    (v58 : Vec Ideal S1024 .i32) (hv58 : ∀ c, v58 (ix1 c) = L (ix1 (keyOf k c)))
    (arg8 : FVec Ideal S128 .f32) (r : Fin 128) :
    k0_pay7 (F := Ideal) arg8 (k0_pay10 (F := Ideal) v0 (k0_pay1 x1) (k0_pay2 x1) 0#32 1#32 k v25) (k0_pay11 (F := Ideal) v5 v58) (ix1 r)
      = min (arg8 (ix1 r)) ((Finset.univ : Finset (Fin 1024)).fold min ⊤ fun c =>
          Scalar.select (neg L (rowOf t r) (keyOf k c)) (dist X (rowOf t r) (keyOf k c)) ⊤) := by
  show min (arg8 (ix1 r)) (multiReduction (F := Ideal) .minimumf [1] S128
      (select (k0_pay11 (F := Ideal) v5 v58)
        (k0_pay10 (F := Ideal) v0 (k0_pay1 x1) (k0_pay2 x1) 0#32 1#32 k v25)
        (broadcast S128x1024 (Named.named (F := Ideal) κ "pos_big" (φ := .f32) 0x7F61B1E6#32)))
      0x7F800000#32 reduces_S128x1024_S128 (.inl rfl) rfl (ix1 r)) = _
  refine congrArg (min (arg8 (ix1 r))) ?_
  refine (rowMin_apply _ r).trans ?_
  refine congrArg (fun f => (Finset.univ : Finset (Fin 1024)).fold min ⊤ f) (funext fun c => ?_)
  show Scalar.select (k0_pay11 (F := Ideal) v5 v58 (ix2 r c))
    (k0_pay10 (F := Ideal) v0 (k0_pay1 x1) (k0_pay2 x1) 0#32 1#32 k v25 (ix2 r c))
    (Named.named (F := Ideal) κ "pos_big" (φ := .f32) 0x7F61B1E6#32) = _
  rw [pay11_apply L t k v5 hv5 v58 hv58, pay10_apply X t k v0 hv0 x1 hx1 v25 hv25, pos_big]

/-- The last arithmetic: the loss of the hardest positive against the semi-hard negative when the running minimum left
    its initial value, else against the hardest negative. -/
theorem pay8_apply (v8 a b : FVec Ideal S128 .f32) (r : Fin 128) :
    k0_pay8 (F := Ideal) v8 a b (ix1 r)
      = lossOf (v8 (ix1 r)) (Scalar.select (Ideal.cmp .olt (a (ix1 r)) ⊤) (a (ix1 r)) (b (ix1 r))) := by
  show max (v8 (ix1 r) - Scalar.select (Ideal.cmp .olt (a (ix1 r)) (Named.named (F := Ideal) κ "pos_big" (φ := .f32) 0x7F61B1E6#32))
      (a (ix1 r)) (b (ix1 r)) + margin) zero = _
  rw [pos_big]
  rfl

/-- The three initial values. -/
theorem pay3_apply (r : Fin 128) : k0_pay3 (F := Ideal) (ix1 r) = (⊥ : EReal) := neg_big
theorem pay4_apply (r : Fin 128) : k0_pay4 (F := Ideal) (ix1 r) = (⊤ : EReal) := pos_big
theorem pay5_apply (r : Fin 128) : k0_pay5 (F := Ideal) (ix1 r) = (⊤ : EReal) := pos_big

end Cert.Triplet.Pay

end
-- ==== Proof.KIValue.lean ====
/-
  The value of the triplet-loss kernel at the ideal instance: after the region the losses' array holds, at row i, the
  specification's loss of anchor i (with "a semi-hard negative exists" read off the running minimum).

  A grid point t writes the 128 losses of anchors 128·t … 128·t + 127, and the 64 points' blocks tile the array. Within a
  point, one trip of the first sweep folds the maximum over keys 1024·k … 1024·k + 1023 into the running one, so the
  eight trips give the maximum over all 8192 keys (a maximum taken tile by tile); likewise the two running minima of
  the second sweep.
-/
import proofs.«120611_j52630529245412_2_alg».proof.Proof.KIRun
import proofs.«120611_j52630529245412_2_alg».proof.Proof.Spec
import proofs.«120611_j52630529245412_2_alg».proof.Proof.LossLaws
import Idealize.ShloMosaic.Lib.Pipeline.Value
import proofs.«120611_j52630529245412_2_alg».proof.Proof.KIBlocks
import proofs.«120611_j52630529245412_2_alg».proof.Proof.KPay

set_option maxRecDepth 65536

noncomputable section

namespace Cert.KernelIdeal.Hand

open Cert.KernelIdeal Cert.KernelIdeal.Gen Cert.Triplet
open Idealize.ShloMosaic Idealize.ShloMosaic.TcCoe Idealize.ShloMosaic.ValueIdx
open Idealize.SL Idealize.SL.Sem
open Idealize.ShloMosaic.Pipeline (Dat Cfg Window)

/-! ## One trip of each sweep is the skeleton's payload at the trip's two loads -/

section Trips
variable {F : FTy → Type} [FloatOps F] [Named F]

theorem trip1_eq (c : Dev nD) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole) (v0 : BitVec 32) (v1 : Vec F S128x512 .f32) (v5 : Vec F S128 .i32)
    (f2 : BufTy.Contents (Elt F) arg2.view.ty) (f4 : BufTy.Contents (Elt F) arg4.view.ty) (k : Fin k0_t1_loop.trips) (acc : FVec F S128 .f32) :
    tripR_k0_t1 (F := F) Variants.none c none i arg1 harg1 arg2 harg2 arg3 harg3 arg4 harg4 arg5 harg5 v0 v1 v5 f2 f4 k acc
      = k0_pay9 v0 (k0_pay1 v1) (k0_pay2 v1) v5 0#32 1#32 k acc
          (View.readAt (Elt F) arg2.view (Rect.unit (s := S8192x512) (k0_off1 k) S1024x512.size (k0_off1_inb k)).toLoadRect f2)
          (View.readAt (Elt F) arg4.view (Rect.unit (s := S8192) (k0_off2 k) S1024.size (k0_off2_inb k)).toLoadRect f4) := by
  unfold tripR_k0_t1 trip_k0_t1
  rfl

theorem trip2_eq (c : Dev nD) (i : grid0.Coords)
    (arg1 : Memref sig .tc .vmem S128x512 .f32) (harg1 : arg1.IsWhole) (arg2 : Memref sig .tc .vmem S8192x512 .f32) (harg2 : arg2.IsWhole)
    (arg3 : Memref sig .tc .vmem S128 .i32) (harg3 : arg3.IsWhole) (arg4 : Memref sig .tc .vmem S8192 .i32) (harg4 : arg4.IsWhole)
    (arg5 : Memref sig .tc .vmem S128 .f32) (harg5 : arg5.IsWhole) (v0 : BitVec 32) (v1 : Vec F S128x512 .f32) (v5 : Vec F S128 .i32) (v8 : FVec F S128 .f32)
    (f2 : BufTy.Contents (Elt F) arg2.view.ty) (f4 : BufTy.Contents (Elt F) arg4.view.ty) (k : Fin k0_t2_loop.trips) (acc : FVec F S128 .f32 × FVec F S128 .f32) :
    tripR_k0_t2 (F := F) Variants.none c none i arg1 harg1 arg2 harg2 arg3 harg3 arg4 harg4 arg5 harg5 v0 v1 v5 v8 f2 f4 k acc
      = (k0_pay6 acc.1
            (k0_pay10 v0 (k0_pay1 v1) (k0_pay2 v1) 0#32 1#32 k
              (View.readAt (Elt F) arg2.view (Rect.unit (s := S8192x512) (k0_off3 k) S1024x512.size (k0_off3_inb k)).toLoadRect f2))
            (k0_pay12 v0 (k0_pay1 v1) (k0_pay2 v1) v5 v8 0#32 1#32 k
              (View.readAt (Elt F) arg2.view (Rect.unit (s := S8192x512) (k0_off3 k) S1024x512.size (k0_off3_inb k)).toLoadRect f2)
              (View.readAt (Elt F) arg4.view (Rect.unit (s := S8192) (k0_off4 k) S1024.size (k0_off4_inb k)).toLoadRect f4))
            (Named.named κ "pos_big" 0x7F61B1E6#32),
         k0_pay7 acc.2
            (k0_pay10 v0 (k0_pay1 v1) (k0_pay2 v1) 0#32 1#32 k
              (View.readAt (Elt F) arg2.view (Rect.unit (s := S8192x512) (k0_off3 k) S1024x512.size (k0_off3_inb k)).toLoadRect f2))
            (k0_pay11 v5
              (View.readAt (Elt F) arg4.view (Rect.unit (s := S8192) (k0_off4 k) S1024.size (k0_off4_inb k)).toLoadRect f4))) := by
  unfold tripR_k0_t2 trip_k0_t2
  rfl

end Trips

/-! ## Eight trips of a running extremum -/

/-- A row's running maximum that starts at −∞ and at each of eight trips takes in one tile's maximum ends at the
    maximum taken tile by tile. -/
theorem iter_max (st : ℕ → S128.Idx → EReal) (g : ℕ → EReal) (r : Fin 128) (h0 : st 0 (ix1 r) = ⊥)
    (hs : ∀ k, k < 8 → st (k + 1) (ix1 r) = max (st k (ix1 r)) ((Finset.univ : Finset (Fin 1024)).fold max ⊥ fun c => g (1024 * k + c.val))) :
    st 8 (ix1 r) = tileMax g 8 := by
  have h : ∀ n, n ≤ 8 → st n (ix1 r) = tileMax g n := by
    intro n
    induction n with
    | zero => intro _; exact h0
    | succ k ih =>
      intro hk
      rw [hs k (by omega), ih (by omega)]
      rfl
  exact h 8 le_rfl

/-- The same for a running minimum from +∞. -/
theorem iter_min (st : ℕ → S128.Idx → EReal) (g : ℕ → EReal) (r : Fin 128) (h0 : st 0 (ix1 r) = ⊤)
    (hs : ∀ k, k < 8 → st (k + 1) (ix1 r) = min (st k (ix1 r)) ((Finset.univ : Finset (Fin 1024)).fold min ⊤ fun c => g (1024 * k + c.val))) :
    st 8 (ix1 r) = tileMin g 8 := by
  have h : ∀ n, n ≤ 8 → st n (ix1 r) = tileMin g n := by
    intro n
    induction n with
    | zero => intro _; exact h0
    | succ k ih =>
      intro hk
      rw [hs k (by omega), ih (by omega)]
      rfl
  exact h 8 le_rfl

/-! ## From the points' blocks to the losses' array -/

section Value

variable (m : (ℓ : Loc nD τ sig) → Buf (Elt Ideal) ℓ) (ρ : Dev nD → PrngReg)

/-- The two argument arrays of core `c`, as the specification reads them. -/
abbrev Xa (c : Dev nD) : Emb := m ((c : Thread nD τ).loc main_arg0)
abbrev La (c : Dev nD) : Lab := m ((c : Thread nD τ).loc main_arg1)

theorem row_lt (t : Fin cfg0.N) (r : Fin 128) : 128 * t.val + r.val < 8192 := by
  have h : t.val < 64 := lt_of_lt_of_eq t.isLt N_0
  have := r.isLt
  omega

end Value

/-! ## One grid point's losses, row by row -/

section Row

set_option quotPrecheck false

open Cert.Triplet.Pay

variable (m : (ℓ : Loc nD τ sig) → Buf (Elt Ideal) ℓ)

/-- The masked key values a row's three extrema range over, as functions of the key's number (junk past the last key:
    never read). `v` is the row's hardest positive. -/
def gPos (X : Emb) (L : Lab) (i : Fin 8192) (j : ℕ) : EReal :=
  if h : j < 8192 then Scalar.select (IntOp.andi (same L i ⟨j, h⟩) (nz X i ⟨j, h⟩)) (dist X i ⟨j, h⟩) ⊥ else ⊥
def gSemi (X : Emb) (L : Lab) (i : Fin 8192) (v : EReal) (j : ℕ) : EReal :=
  if h : j < 8192 then Scalar.select (IntOp.andi (neg L i ⟨j, h⟩) (Ideal.cmp .ogt (dist X i ⟨j, h⟩) v)) (dist X i ⟨j, h⟩) ⊤ else ⊤
def gNeg (X : Emb) (L : Lab) (i : Fin 8192) (j : ℕ) : EReal :=
  if h : j < 8192 then Scalar.select (neg L i ⟨j, h⟩) (dist X i ⟨j, h⟩) ⊤ else ⊤

theorem gPos_key (X : Emb) (L : Lab) (i : Fin 8192) (k : Fin 8) (c' : Fin 1024) :
    gPos X L i (1024 * k.val + c'.val)
      = Scalar.select (IntOp.andi (same L i (keyOf k c')) (nz X i (keyOf k c'))) (dist X i (keyOf k c')) ⊥ := by
  unfold gPos; exact dif_pos (keyOf k c').isLt
theorem gSemi_key (X : Emb) (L : Lab) (i : Fin 8192) (v : EReal) (k : Fin 8) (c' : Fin 1024) :
    gSemi X L i v (1024 * k.val + c'.val)
      = Scalar.select (IntOp.andi (neg L i (keyOf k c')) (Ideal.cmp .ogt (dist X i (keyOf k c')) v)) (dist X i (keyOf k c')) ⊤ := by
  unfold gSemi; exact dif_pos (keyOf k c').isLt
theorem gNeg_key (X : Emb) (L : Lab) (i : Fin 8192) (k : Fin 8) (c' : Fin 1024) :
    gNeg X L i (1024 * k.val + c'.val) = Scalar.select (neg L i (keyOf k c')) (dist X i (keyOf k c')) ⊤ := by
  unfold gNeg; exact dif_pos (keyOf k c').isLt

/-- A grid point as a number below 64. -/
abbrev pt (t : Fin cfg0.N) : Fin 64 := ⟨t.val, point_lt t⟩

theorem word_eq (t : Fin cfg0.N) : BitVec.ofNat 32 (128 * t.val) = Scalar.muli (BitVec.ofNat 32 (pt t).val) 128#32 := by
  rw [← anchor_word t, coord_eq t]

theorem trips1 : Scf.trips (0#32 : BitVec 32) (Scalar.addi 0#32 8#32) 1#32 = 8 := by decide

variable (c : Dev nD) (t : Fin cfg0.N) (i : grid0.Coords)
  (A1 : Memref sig .tc .vmem S128x512 .f32) (h1 : A1.IsWhole) (A2 : Memref sig .tc .vmem S8192x512 .f32) (h2 : A2.IsWhole)
  (A3 : Memref sig .tc .vmem S128 .i32) (h3 : A3.IsWhole) (A4 : Memref sig .tc .vmem S8192 .i32) (h4 : A4.IsWhole)
  (A5 : Memref sig .tc .vmem S128 .f32) (h5 : A5.IsWhole)

local notation "B0" => (iblk m c 0 t : Vec Ideal S128x512 .f32)
local notation "B1" => (iblk m c 1 t : Vec Ideal S8192x512 .f32)
local notation "B2" => (iblk m c 2 t : Vec Ideal S128 .i32)
local notation "B3" => (iblk m c 3 t : Vec Ideal S8192 .i32)
local notation "W0" => BitVec.ofNat 32 (128 * t.val)
local notation "SW1" => st_k0_t1 (F := Ideal) Variants.none c none i A1 h1 A2 h2 A3 h3 A4 h4 A5 h5 W0 B0 B2 (h2.unread B1) (h4.unread B3) k0_pay3

theorem hx1 (r : Fin 128) (q : Fin 512) : B0 (ix2 r q) = Xa m c (ix2 (rowOf (pt t) r) q) := iblk0_apply m c t r q
theorem hx3 (r : Fin 128) : B2 (ix1 r) = La m c (ix1 (rowOf (pt t) r)) := iblk2_apply m c t r

/-- THE FIRST SWEEP: after its eight trips the running maximum of row r is the hardest positive of anchor 128·t + r. -/
theorem hp_row (r : Fin 128) : SW1 8 (ix1 r) = hp (Xa m c) (La m c) (rowOf (pt t) r) := by
  refine (iter_max (fun n => SW1 n) (gPos (Xa m c) (La m c) (rowOf (pt t) r)) r (pay3_apply r) ?_).trans ?_
  · intro k hk
    have e := st_k0_t1_succ (F := Ideal) Variants.none c none i A1 h1 A2 h2 A3 h3 A4 h4 A5 h5 W0 B0 B2 (h2.unread B1) (h4.unread B3) k0_pay3 ⟨k, hk⟩
    refine (congrFun e (ix1 r)).trans ?_
    rw [trip1_eq]
    refine (pay9_apply (Xa m c) (La m c) (pt t) ⟨k, hk⟩ W0 (word_eq t) B0 (hx1 m c t) _
      (fun c' q => (load_keys1 A2 h2 B1 ⟨k, hk⟩ c' q).trans (iblk1_apply m c t _ q)) B2 (hx3 m c t) _
      (fun c' => (load_labels1 A4 h4 B3 ⟨k, hk⟩ c').trans (iblk3_apply m c t _)) _ r).trans ?_
    refine congrArg (max _) (congrArg (fun f => Finset.fold max ⊥ f Finset.univ) (funext fun c' => ?_))
    exact (gPos_key _ _ _ ⟨k, hk⟩ c').symm
  · rw [tileMax_eight]
    unfold hp
    exact congrArg (fun f => Finset.fold max ⊥ f Finset.univ) (funext fun j => dif_pos j.isLt)

local notation "SW2" => st_k0_t2 (F := Ideal) Variants.none c none i A1 h1 A2 h2 A3 h3 A4 h4 A5 h5 W0 B0 B2 (SW1 8) (h2.unread B1) (h4.unread B3) (k0_pay4, k0_pay5)

theorem sw2_succ (k : ℕ) (hk : k < 8) :
    SW2 (k + 1) = (k0_pay6 (SW2 k).1
            (k0_pay10 W0 (k0_pay1 B0) (k0_pay2 B0) 0#32 1#32 ⟨k, hk⟩
              (View.readAt (Elt Ideal) A2.view (Rect.unit (s := S8192x512) (k0_off3 ⟨k, hk⟩) S1024x512.size (k0_off3_inb ⟨k, hk⟩)).toLoadRect (h2.unread B1)))
            (k0_pay12 W0 (k0_pay1 B0) (k0_pay2 B0) B2 (SW1 8) 0#32 1#32 ⟨k, hk⟩
              (View.readAt (Elt Ideal) A2.view (Rect.unit (s := S8192x512) (k0_off3 ⟨k, hk⟩) S1024x512.size (k0_off3_inb ⟨k, hk⟩)).toLoadRect (h2.unread B1))
              (View.readAt (Elt Ideal) A4.view (Rect.unit (s := S8192) (k0_off4 ⟨k, hk⟩) S1024.size (k0_off4_inb ⟨k, hk⟩)).toLoadRect (h4.unread B3)))
            (Named.named κ "pos_big" 0x7F61B1E6#32),
         k0_pay7 (SW2 k).2
            (k0_pay10 W0 (k0_pay1 B0) (k0_pay2 B0) 0#32 1#32 ⟨k, hk⟩
              (View.readAt (Elt Ideal) A2.view (Rect.unit (s := S8192x512) (k0_off3 ⟨k, hk⟩) S1024x512.size (k0_off3_inb ⟨k, hk⟩)).toLoadRect (h2.unread B1)))
            (k0_pay11 B2
              (View.readAt (Elt Ideal) A4.view (Rect.unit (s := S8192) (k0_off4 ⟨k, hk⟩) S1024.size (k0_off4_inb ⟨k, hk⟩)).toLoadRect (h4.unread B3)))) :=
  (st_k0_t2_succ (F := Ideal) Variants.none c none i A1 h1 A2 h2 A3 h3 A4 h4 A5 h5 W0 B0 B2 (SW1 8) (h2.unread B1) (h4.unread B3) (k0_pay4, k0_pay5) ⟨k, hk⟩).trans
    (trip2_eq c i A1 h1 A2 h2 A3 h3 A4 h4 A5 h5 W0 B0 B2 (SW1 8) (h2.unread B1) (h4.unread B3) ⟨k, hk⟩ _)

/-- THE SECOND SWEEP: its two running minima of row r end at the hardest semi-hard negative and the hardest negative. -/
theorem hs_row (r : Fin 128) : (SW2 8).1 (ix1 r) = hs (Xa m c) (La m c) (rowOf (pt t) r) := by
  refine (iter_min (fun n => (SW2 n).1) (gSemi (Xa m c) (La m c) (rowOf (pt t) r) (hp (Xa m c) (La m c) (rowOf (pt t) r))) r (pay4_apply r) ?_).trans ?_
  · intro k hk
    refine (congrFun (congrArg Prod.fst (sw2_succ m c t i A1 h1 A2 h2 A3 h3 A4 h4 A5 h5 k hk)) (ix1 r)).trans ?_
    refine (pay6_apply (Xa m c) (La m c) (pt t) ⟨k, hk⟩ W0 (word_eq t) B0 (hx1 m c t) _
      (fun c' q => (load_keys2 A2 h2 B1 ⟨k, hk⟩ c' q).trans (iblk1_apply m c t _ q)) B2 (hx3 m c t) _
      (fun c' => (load_labels2 A4 h4 B3 ⟨k, hk⟩ c').trans (iblk3_apply m c t _)) _ (SW1 8) r).trans ?_
    rw [hp_row m c t i A1 h1 A2 h2 A3 h3 A4 h4 A5 h5 r]
    refine congrArg (min _) (congrArg (fun f => Finset.fold min ⊤ f Finset.univ) (funext fun c' => ?_))
    exact (gSemi_key _ _ _ _ ⟨k, hk⟩ c').symm
  · rw [tileMin_eight]
    unfold hs semi
    exact congrArg (fun f => Finset.fold min ⊤ f Finset.univ) (funext fun j => dif_pos j.isLt)

theorem ha_row (r : Fin 128) : (SW2 8).2 (ix1 r) = ha (Xa m c) (La m c) (rowOf (pt t) r) := by
  refine (iter_min (fun n => (SW2 n).2) (gNeg (Xa m c) (La m c) (rowOf (pt t) r)) r (pay5_apply r) ?_).trans ?_
  · intro k hk
    refine (congrFun (congrArg Prod.snd (sw2_succ m c t i A1 h1 A2 h2 A3 h3 A4 h4 A5 h5 k hk)) (ix1 r)).trans ?_
    refine (pay7_apply (Xa m c) (La m c) (pt t) ⟨k, hk⟩ W0 (word_eq t) B0 (hx1 m c t) _
      (fun c' q => (load_keys2 A2 h2 B1 ⟨k, hk⟩ c' q).trans (iblk1_apply m c t _ q)) B2 (hx3 m c t) _
      (fun c' => (load_labels2 A4 h4 B3 ⟨k, hk⟩ c').trans (iblk3_apply m c t _)) _ r).trans ?_
    refine congrArg (min _) (congrArg (fun f => Finset.fold min ⊤ f Finset.univ) (funext fun c' => ?_))
    exact (gNeg_key _ _ _ ⟨k, hk⟩ c').symm
  · rw [tileMin_eight]
    unfold ha
    exact congrArg (fun f => Finset.fold min ⊤ f Finset.univ) (funext fun j => dif_pos j.isLt)

/-- THE POINT'S STORE, at row r: the loss of anchor 128·t + r. -/
theorem out_row (r : Fin 128) :
    k0_pay8 (F := Ideal) (SW1 8) (SW2 8).1 (SW2 8).2 (ix1 r) = lossMin (Xa m c) (La m c) (rowOf (pt t) r) := by
  rw [pay8_apply, hp_row m c t i A1 h1 A2 h2 A3 h3 A4 h4 A5 h5 r, hs_row m c t i A1 h1 A2 h2 A3 h3 A4 h4 A5 h5 r,
    ha_row m c t i A1 h1 A2 h2 A3 h3 A4 h4 A5 h5 r]
  rfl

end Row

section Value2

variable (m : (ℓ : Loc nD τ sig) → Buf (Elt Ideal) ℓ) (ρ : Dev nD → PrngReg)

theorem lossBlock_row (c : Dev nD) (t : Fin cfg0.N) (r : Fin 128) :
    lossBlock (F := Ideal) m c t (ix1 r) = lossMin (Xa m c) (La m c) ⟨128 * t.val + r.val, row_lt t r⟩ := by
  unfold lossBlock
  rw [View.canon_unit_zero zeros1]
  unfold outv
  dsimp only
  rw [load_all_rows, load_all_labels, anchor_word, trips1]
  exact out_row m c t (grid0.coords t) _ _ _ _ _ _ _ _ _ _ r

/-- The losses' window moves one block per grid point. -/
theorem idx4 : ∀ t : Fin cfg0.N, win0_4.index t (0 : Fin 1) = t.val :=
  (by decide +kernel : ∀ t : Fin grid0.N, win0_4.index t (0 : Fin 1) = t.val)

/-- The array the losses end in, index by index. -/
abbrev lossArr (c : Dev nD) : S8192.Idx → EReal := fun idx => lossMin (Xa m c) (La m c) (idx 0)

/-- What point `t` writes back is block `t` of that array. -/
theorem flushed4_eq (c : Dev nD) (t : Fin cfg0.N) :
    (dats m 0 c).flushed 4 t = ((cfg0.win 4).blk t).view.read (Elt Ideal) (lossArr m c) := by
  show (cfg0.win 4).cut (grid0.coords t) ((dats m 0 c).after 4 t) = _
  rw [after4]
  funext y
  obtain ⟨r, rfl⟩ : ∃ r : Fin 128, y = ix1 r := ⟨y 0, eq_ix1 y⟩
  show lossBlock m c t (ix1 r) = lossMin (Xa m c) (La m c) ((((cfg0.win 4).blk t).view.emb (ix1 r)) 0)
  rw [lossBlock_row]
  congr 1
  apply Fin.ext
  show 128 * t.val + r.val = win0_4.index t (0 : Fin 1) * 128 + 1 * r.val
  have := idx4 t
  omega

theorem mem_blk4 (t : Fin cfg0.N) (i : S8192.Idx) :
    i ∈ ((cfg0.win 4).blk t).view.set ↔ ∀ a : Fin 1, win0_4.index t a * S128.size a ≤ (i a).val ∧ (i a).val < win0_4.index t a * S128.size a + S128.size a := by
  show i ∈ ((View.whole main_v0).slice (win0_4.rect t)).set ↔ _
  rw [View.set_slice_whole, Rect.mem_set_unit]
  exact Iff.rfl

/-- The 64 blocks tile the array: row i lies in the block of point i / 128. -/
theorem cover4 (i : S8192.Idx) : ∃ t : Fin cfg0.N, (cfg0.win 4).flush t = true ∧ i ∈ ((cfg0.win 4).blk t).view.set := by
  have hi : (i 0).val < 8192 := (i 0).isLt
  refine ⟨⟨(i 0).val / 128, by rw [show cfg0.N = 64 from N_0]; omega⟩, flush0_4 _, ?_⟩
  rw [mem_blk4]
  intro a
  match a with
  | ⟨0, _⟩ =>
    show win0_4.index _ (0 : Fin 1) * 128 ≤ (i 0).val ∧ (i 0).val < win0_4.index _ (0 : Fin 1) * 128 + 128
    rw [idx4]
    show (i 0).val / 128 * 128 ≤ (i 0).val ∧ (i 0).val < (i 0).val / 128 * 128 + 128
    omega

/-- THE LOSSES' ARRAY after the region. -/
theorem final4 (c : Dev nD) : (dats m 0 c).arrAt 4 cfg0.N = lossArr m c :=
  (dats m 0 c).arrAt_eq_of_cover 4 (lossArr m c) (fun t _ => flushed4_eq m c t) cover4

/-- THE KERNEL'S RUN, read: the result is the mean of the specification's losses; the arguments are kept. -/
theorem kernel_run : θ_run (defs (F := Ideal)) (onTc (τ := τ) (main (F := Ideal))) ⟨m, fun _ => 0, ρ⟩ (fun r => ∀ c : Dev nD,
      r.2.mem ((c.tc : Thread nD τ).loc main_v2) = meanOf (F := Ideal) (lossArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (congrArg (meanOf (F := Ideal)) (final4 m c)), (h c).2⟩) (run_result m ρ)

end Value2

end Cert.KernelIdeal.Hand

end
-- ==== Proof.RefHand.lean ====
/-
  Six operations of the triplet-loss reference read by hand, over plain arrays: the two index columns joined into
  index pairs, the write of one constant onto the diagonal of a square array, and the three kinds of row reduction
  (greatest, least, disjunction) as folds over the columns of a row; with the few facts about words they rest on.
-/
import proofs.«120611_j52630529245412_2_alg».proof.ReferenceIdeal
import Idealize.ShloMosaic.Lib.ValueIdx
import Idealize.ShloMosaic.Lib.Pipeline.Value
import Idealize.ShloMosaic.PureOps.Reduce
import Idealize.ShloMosaic.PureOps.Ideal.Laws

noncomputable section

namespace Cert.Triplet.Ref

open Idealize.ShloMosaic Idealize.ShloMosaic.ValueIdx Cert.ReferenceIdeal

/-! ## Words -/

/-- A number below 8192 written on 32 bits reads back, signed, as itself. -/
theorem toInt_ofNat_small (n : Nat) (h : n < 8192) : (BitVec.ofNat 32 n).toInt = (n : Int) := by
  have hm : n % 2 ^ 32 = n := Nat.mod_eq_of_lt (by omega)
  rw [BitVec.toInt_eq_toNat_of_lt (by rw [BitVec.toNat_ofNat, hm]; omega), BitVec.toNat_ofNat, hm]

/-- Wrapping a negative index around by the extent leaves an index that is not negative alone. -/
theorem wrap_eq (n : Nat) (h : n < 8192) :
    Scalar.select (IntOp.cmpi .slt (BitVec.ofNat 32 n) 0#32) (IntOp.addi (BitVec.ofNat 32 n) 8192#32) (BitVec.ofNat 32 n)
      = BitVec.ofNat 32 n := by
  have hs : (BitVec.ofNat 32 n).slt 0#32 = false := by
    rw [BitVec.slt, toInt_ofNat_small n h]
    simp
  unfold Scalar.select IntOp.cmpi
  simp [hs]

/-- On one bit, complementing is adding one. -/
theorem not_eq_xor_one (b : BitVec 1) : ~~~b = IntOp.xori b 1#1 := by revert b; decide

/-- The two infinite words, and the negative of the positive one. -/
theorem posInf : Ideal.ofBits .f32 0x7F800000#32 = (⊤ : EReal) := by simp [Ideal.ofBits, Ideal.ieee]
theorem negInf : Ideal.ofBits .f32 0xFF800000#32 = (⊥ : EReal) := by simp [Ideal.ofBits, Ideal.ieee]
theorem negPosInf : -(Ideal.ofBits .f32 0x7F800000#32) = (⊥ : EReal) := by rw [posInf]; rfl

/-! ## Overwriting by one constant -/

/-- A left fold whose step at `n` puts `z` at the place `R n` names (and does nothing when it names none) ends with
    `z` exactly at the places some member of the list names, and the start elsewhere. -/
theorem foldl_overwrite {ι κ α : Type} [DecidableEq κ] (step : (κ → α) → ι → (κ → α)) (R : ι → Option κ) (z : α)
    (hs : ∀ r n p, step r n p = if R n = some p then z else r p) :
    ∀ (l : List ι) (x : κ → α) (p : κ), l.foldl step x p = if ∃ n ∈ l, R n = some p then z else x p := by
  intro l
  induction l with
  | nil => intro x p; simp
  | cons n l ih =>
    intro x p
    rw [List.foldl_cons, ih, hs]
    by_cases h1 : ∃ m ∈ l, R m = some p
    · rw [if_pos h1, if_pos]
      obtain ⟨m, hm, e⟩ := h1
      exact ⟨m, List.mem_cons_of_mem _ hm, e⟩
    · rw [if_neg h1]
      by_cases h2 : R n = some p
      · rw [if_pos h2, if_pos ⟨n, List.mem_cons_self .., h2⟩]
      · rw [if_neg h2, if_neg]
        rintro ⟨m, hm, e⟩
        rcases List.mem_cons.1 hm with rfl | hm
        · exact h2 e
        · exact h1 ⟨m, hm, e⟩

variable [Facts₀]
open Facts₀

/-! ## The index pairs -/

/-- Two columns joined side by side: the pair in row `n` is the two columns' entries of that row. -/
theorem concat_cols_left {α : Type} (a b : S8192x1.Idx → α) (n : Fin 8192) :
    concatenate S8192x2 1 [⟨S8192x1, a⟩, ⟨S8192x1, b⟩] concatenates_S8192x1_S8192x1_S8192x2_d1 (ix2 n (0 : Fin 2))
      = a (ix2 n (0 : Fin 1)) :=
  concatenate_pair_apply_left (1 : Fin S8192x2.rank) a b concatenates_S8192x1_S8192x1_S8192x2_d1 (ix2 n (0 : Fin 2)) rfl
    (ix2 n (0 : Fin 1)) (fun c => by match c with | ⟨0, _⟩ => rfl | ⟨1, _⟩ => rfl)

theorem concat_cols_right {α : Type} (a b : S8192x1.Idx → α) (n : Fin 8192) :
    concatenate S8192x2 1 [⟨S8192x1, a⟩, ⟨S8192x1, b⟩] concatenates_S8192x1_S8192x1_S8192x2_d1 (ix2 n (1 : Fin 2))
      = b (ix2 n (0 : Fin 1)) :=
  concatenate_pair_apply_right (1 : Fin S8192x2.rank) a b concatenates_S8192x1_S8192x1_S8192x2_d1 (ix2 n (1 : Fin 2)) rfl rfl
    (ix2 n (0 : Fin 1)) (fun c hc => by
      match c with
      | ⟨0, _⟩ => rfl
      | ⟨1, _⟩ => exact absurd rfl hc) rfl

/-! ## One constant written onto the diagonal -/

/-- The scatter's dimension numbers: both axes of the square array are scattered, one index pair per update. -/
abbrev D : ScatterDims S8192x8192 S8192x2 S8192 := scatter_S8192x8192_S8192x2_S8192_n_01_01_1

theorem window_zero (q : S8192.Idx) (a : Fin S8192x8192.rank) : D.window q a = 0 := by
  unfold ScatterDims.window
  have ha : a ∉ D.sKept := by
    show a ∉ Shape.kept S8192x8192 ([0, 1] : List (Fin S8192x8192.rank))
    revert a; decide
  rw [dif_neg ha]

theorem idxOf_eq (a : Fin S8192x8192.rank) : D.scatterDimsToOperandDims.idxOf a = a.val := by
  show List.idxOf a ([0, 1] : List (Fin S8192x8192.rank)) = a.val
  revert a; decide

/-- Update `q` reads component `c` of its index pair in row `q`, column `c` of the table. -/
theorem siIdx_eq (q : S8192.Idx) (c : Fin D.scatterDimsToOperandDims.length) :
    D.siIdx q c = ix2 (q 0) ⟨c.val, c.isLt⟩ := by
  funext b
  apply Fin.ext
  have hb2 : b.val < 2 := b.isLt
  unfold ScatterDims.siIdx
  by_cases hb : b.val = D.indexVectorDim
  · rw [dif_pos hb]
    have hb1 : b = (1 : Fin 2) := Fin.ext hb
    subst hb1
    rfl
  · rw [dif_neg hb]
    have hb0 : b = (0 : Fin 2) := Fin.ext (by
      have h1 : D.indexVectorDim = 1 := rfl
      rw [h1] at hb
      show b.val = 0
      omega)
    subst hb0
    unfold ScatterDims.siCoord
    exact congrArg (fun t => (q t).val) (Subsingleton.elim _ _)

theorem start_eq (idx : IVec S8192x2 32) (q : S8192.Idx) (a : Fin S8192x8192.rank) :
    D.start q idx a = (idx (ix2 (q 0) ⟨a.val, a.isLt⟩)).toInt := by
  unfold ScatterDims.start
  have ha : a ∈ D.scatterDimsToOperandDims := by
    show a ∈ ([0, 1] : List (Fin S8192x8192.rank))
    revert a; decide
  rw [dif_pos ha, siIdx_eq]
  exact congrArg (fun t => (idx t).toInt) (funext fun b => Fin.ext (by
    match b with
    | ⟨0, _⟩ => rfl
    | ⟨1, _⟩ => exact idxOf_eq a))

/-- Where update `q` lands when row `n` of the index table holds the pair `(n, n)`: on the diagonal, at `(q, q)`. -/
theorem resultIdx_diag (idx : IVec S8192x2 32)
    (hidx : ∀ (n : Fin 8192) (c : Fin 2), (idx (ix2 n c)).toInt = (n.val : Int)) (q : S8192.Idx) :
    D.resultIdx? q idx = some (ix2 (n0 := 8192) (n1 := 8192) (q 0) (q 0)) := by
  have hq : (q 0).val < 8192 := (q 0).isLt
  have hv : ∀ a : Fin S8192x8192.rank, D.start q idx a + (D.window q a : Int) = ((q 0).val : Int) := fun a => by
    have e := hidx (q 0) ⟨a.val, a.isLt⟩
    rw [start_eq, window_zero, e]
    simp
  unfold ScatterDims.resultIdx?
  have h : ∀ a : Fin S8192x8192.rank,
      0 ≤ D.start q idx a + (D.window q a : Int) ∧ D.start q idx a + (D.window q a : Int) < S8192x8192.size a := fun a => by
    rw [hv a]
    have hs : (S8192x8192.size a : Int) = 8192 := by
      match a with
      | ⟨0, _⟩ => rfl
      | ⟨1, _⟩ => rfl
    rw [hs]
    omega
  rw [dif_pos h]
  refine congrArg some (funext fun a => Fin.ext ?_)
  show (D.start q idx a + (D.window q a : Int)).toNat = _
  rw [hv a]
  match a with
  | ⟨0, _⟩ => exact Int.toNat_natCast _
  | ⟨1, _⟩ => exact Int.toNat_natCast _

/-- One constant `z` written at the places the index table names, when row `n` of the table holds `(n, n)`: the result
    is `z` on the diagonal and the operand elsewhere. -/
theorem scatter_diag {α : Type} (x : S8192x8192.Idx → α) (idx : IVec S8192x2 32)
    (hidx : ∀ (n : Fin 8192) (c : Fin 2), (idx (ix2 n c)).toInt = (n.val : Int))
    (upd : S8192.Idx → α) (z : α) (hupd : ∀ k, upd k = z) (i j : Fin 8192) :
    Host.scatter D (fun _ b => b) x idx upd (ix2 i j) = if i = j then z else x (ix2 i j) := by
  unfold Host.scatter
  rw [foldl_overwrite _ (fun n => D.resultIdx? (S8192.rowMajor.symm n) idx) z (fun r n p => by
    dsimp only
    rw [resultIdx_diag idx hidx, hupd]
    show (if p = ix2 (n0 := 8192) (n1 := 8192) ((S8192.rowMajor.symm n) 0) ((S8192.rowMajor.symm n) 0) then z else r p) = _
    by_cases hp : p = ix2 (n0 := 8192) (n1 := 8192) ((S8192.rowMajor.symm n) 0) ((S8192.rowMajor.symm n) 0)
    · rw [if_pos hp, if_pos (congrArg some hp.symm)]
    · rw [if_neg hp, if_neg (fun e => hp (Option.some.inj e).symm)])]
  by_cases hij : i = j
  · subst hij
    rw [if_pos rfl, if_pos]
    refine ⟨S8192.rowMajor (ix1 i), List.mem_finRange _, ?_⟩
    rw [resultIdx_diag idx hidx, Equiv.symm_apply_apply]
  · rw [if_neg hij, if_neg]
    rintro ⟨n, _, e⟩
    rw [resultIdx_diag idx hidx] at e
    have e' := Option.some.inj e
    have e0 := congrFun e' (0 : Fin 2)
    have e1 := congrFun e' (1 : Fin 2)
    exact hij (e0.symm.trans e1)

/-! ## Row reductions -/

/-- A reduction of a square array over its second axis by a commutative, associative operation is, in row `i`, the fold
    of the operation over that row's columns, from the initial value. -/
theorem reduce_row {α : Type} (f : α → α → α) [Std.Commutative f] [Std.Associative f] (x : S8192x8192.Idx → α)
    (init : S_.Idx → α) (i : Fin 8192) :
    Host.reduce f x init reducesTo_S8192x8192_S8192_d1 h_S_ (ix1 i)
      = (Finset.univ : Finset (Fin 8192)).fold f (init (Shape.Idx.first h_S_)) (fun j => x (ix2 i j)) := by
  have h : S8192x8192.Reduces [(1 : Fin S8192x8192.rank)] S8192 := by decide
  rw [Host.reduce_eq_fold_single f x init reducesTo_S8192x8192_S8192_d1 h h_S_ (ix1 i)]
  refine congrArg (Finset.fold f _ · _) (funext fun k => congrArg x (funext fun c => Fin.ext ?_))
  rw [h.lift_val]
  match c with
  | ⟨0, _⟩ => simp [Shape.Reduces.liftVal]
  | ⟨1, _⟩ => simp [Shape.Reduces.liftVal]

end Cert.Triplet.Ref

end
-- ==== Proof.RefSide.lean ====
/-
  The reference program's per-row result is the specification's loss: each stage of the reference read at a row and a
  column (or at a row), from the squared norms and inner products up to the clamped margin, against the
  specification's own terms.
-/
import proofs.«120611_j52630529245412_2_alg».proof.Defs
import proofs.«120611_j52630529245412_2_alg».proof.Proof.ReadP
import proofs.«120611_j52630529245412_2_alg».proof.Proof.Spec
import proofs.«120611_j52630529245412_2_alg».proof.Proof.RefHand
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.Triplet.Ref

open Idealize.ShloMosaic Idealize.ShloMosaic.ValueIdx Cert.ReferenceIdeal Cert.ReferenceIdeal.Gen Cert.ReferenceIdeal.ReadP

/-- The embedding matrix and the label vector as the reference takes them. -/
abbrev X0 : Type := (⟨S8192x512, .f32⟩ : BufTy).Contents (Elt Ideal)
abbrev X1 : Type := (⟨S8192, .i32⟩ : BufTy).Contents (Elt Ideal)

/-! ## Where each layout stage reads its operand -/

theorem at_row_col (i : Fin 8192) (k : Fin 512) : idx_main_v1 (ix1 i) k = ix2 i k :=
  funext fun a => Fin.ext (by match a with | ⟨0, _⟩ => rfl | ⟨1, _⟩ => rfl)
theorem at_left (i j : Fin 8192) (k : Fin 512) : lidx_main_v8 (ix2 i j) k = ix2 i k :=
  funext fun a => Fin.ext (by match a with | ⟨0, _⟩ => rfl | ⟨1, _⟩ => rfl)
theorem at_right (i j : Fin 8192) (k : Fin 512) : idx_main_v7 (ridx_main_v8 (ix2 i j) k) = ix2 j k :=
  funext fun a => Fin.ext (by match a with | ⟨0, _⟩ => rfl | ⟨1, _⟩ => rfl)
theorem at_anchor_sq (i j : Fin 8192) : idx_main_v2 (idx_main_v4 (ix2 i j)) = ix1 i :=
  funext fun a => Fin.ext (by match a with | ⟨0, _⟩ => rfl)
theorem at_key_sq (i j : Fin 8192) : idx_main_v3 (idx_main_v5 (ix2 i j)) = ix1 j :=
  funext fun a => Fin.ext (by match a with | ⟨0, _⟩ => rfl)
theorem at_first_col (n : Fin 8192) : idx_main_v25 (ix2 n (0 : Fin 1)) = ix1 n :=
  funext fun a => Fin.ext (by match a with | ⟨0, _⟩ => rfl)
theorem at_second_col (n : Fin 8192) : idx_main_v26 (ix2 n (0 : Fin 1)) = ix1 n :=
  funext fun a => Fin.ext (by match a with | ⟨0, _⟩ => rfl)
theorem at_anchor_label (i j : Fin 8192) : idx_main_v35 (idx_main_v37 (ix2 i j)) = ix1 i :=
  funext fun a => Fin.ext (by match a with | ⟨0, _⟩ => rfl)
theorem at_key_label (i j : Fin 8192) : idx_main_v36 (idx_main_v38 (ix2 i j)) = ix1 j :=
  funext fun a => Fin.ext (by match a with | ⟨0, _⟩ => rfl)
theorem at_anchor_max (i j : Fin 8192) : idx_main_v45 (idx_main_v46 (ix2 i j)) = ix1 i :=
  funext fun a => Fin.ext (by match a with | ⟨0, _⟩ => rfl)

/-! ## Squared distances -/

/-- The row sums of squares: the sum starts from the zero word. -/
theorem sq_eq (x0 : X0) (i : Fin 8192) : val_main_v1 (F := Ideal) x0 (ix1 i) = sq x0 i := by
  rw [val_main_v1_apply]
  show Ideal.ofBits .f32 0x00000000#32 + _ = _
  rw [Ideal.ofBits_zero_f32, zero_add]
  unfold sq
  refine Finset.sum_congr rfl fun k _ => ?_
  rw [at_row_col]
  rfl

/-- The product with the transposed matrix holds the inner products of the rows. -/
theorem dot_eq (x0 : X0) (i j : Fin 8192) : val_main_v8 (F := Ideal) x0 (ix2 i j) = dot x0 i j := by
  rw [val_main_v8_apply]
  unfold dot
  refine Finset.sum_congr rfl fun k _ => ?_
  rw [val_main_v7_apply, at_left, at_right]

/-- Before the diagonal is cleared: the Gram expansion of the squared distance, clamped at zero. -/
theorem gram_eq (x0 : X0) (i j : Fin 8192) :
    val_main_v13 (F := Ideal) x0 (ix2 i j) = max (sq x0 i + sq x0 j - two * dot x0 i j) zero := by
  rw [val_main_v13_apply, val_main_v11_apply, val_main_v6_apply, val_main_v10_apply, val_main_v4_apply, val_main_v2_apply,
    val_main_v5_apply, val_main_v3_apply, val_main_v9_apply, val_main_v12_apply, at_anchor_sq, at_key_sq, sq_eq, sq_eq, dot_eq]
  rfl

/-! ## The index pairs and the cleared diagonal -/

/-- Both index columns count the rows: no row number is negative, so the wrap does nothing. -/
theorem first_col_eq (n : Fin 8192) : val_main_v19 (F := Ideal) (ix1 n) = BitVec.ofNat 32 n.val := by
  rw [val_main_v19_apply, val_main_v16_apply, val_main_v18_apply, val_main_v14_apply, val_main_v15_apply, val_main_v17_apply,
    val_main_c_apply, val_main_c_2_apply]
  exact wrap_eq n.val n.isLt
theorem second_col_eq (n : Fin 8192) : val_main_v24 (F := Ideal) (ix1 n) = BitVec.ofNat 32 n.val := by
  rw [val_main_v24_apply, val_main_v21_apply, val_main_v23_apply, val_main_v14_apply, val_main_v20_apply, val_main_v22_apply,
    val_main_c_3_apply, val_main_c_4_apply]
  exact wrap_eq n.val n.isLt

/-- Row `n` of the index table holds the pair `(n, n)`. -/
theorem pairs_eq (n : Fin 8192) (c : Fin 2) : (val_main_v27 (F := Ideal) (ix2 n c)).toInt = (n.val : Int) := by
  have hl : val_main_v27 (F := Ideal) (ix2 n (0 : Fin 2)) = BitVec.ofNat 32 n.val := by
    unfold val_main_v27
    refine (concat_cols_left _ _ n).trans ?_
    rw [val_main_v25_apply, at_first_col, first_col_eq]
  have hr : val_main_v27 (F := Ideal) (ix2 n (1 : Fin 2)) = BitVec.ofNat 32 n.val := by
    unfold val_main_v27
    refine (concat_cols_right _ _ n).trans ?_
    rw [val_main_v26_apply, at_second_col, second_col_eq]
  match c with
  | ⟨0, _⟩ => exact (congrArg BitVec.toInt hl).trans (toInt_ofNat_small n.val n.isLt)
  | ⟨1, _⟩ => exact (congrArg BitVec.toInt hr).trans (toInt_ofNat_small n.val n.isLt)

/-- With the zero word written onto the diagonal: the specification's squared distance. -/
theorem d2_eq (x0 : X0) (i j : Fin 8192) : val_main_v29 (F := Ideal) x0 (ix2 i j) = d2 x0 i j := by
  unfold val_main_v29
  refine (scatter_diag _ _ pairs_eq _ zero (fun k => ?_) i j).trans ?_
  · rw [val_main_v28_apply]; rfl
  · unfold d2
    rw [gram_eq]

/-! ## Distances and the masks -/

theorem nz_eq (x0 : X0) (i j : Fin 8192) : val_main_v31 (F := Ideal) x0 (ix2 i j) = nz x0 i j := by
  rw [val_main_v31_apply, d2_eq, val_main_v30_apply]
  rfl

/-- The guarded square root: the root is taken of 1 where the squared distance is 0, and 0 is kept there. -/
theorem dist_eq (x0 : X0) (i j : Fin 8192) : val_main_v34 (F := Ideal) x0 (ix2 i j) = dist x0 i j := by
  rw [val_main_v34_apply, val_main_v33_apply, val_main_v32_apply, nz_eq, d2_eq, val_main_call0_v1_apply,
    val_main_call1_v1_apply]
  rfl

theorem same_eq (x1 : X1) (i j : Fin 8192) : val_main_v39 (F := Ideal) x1 (ix2 i j) = same x1 i j := by
  rw [val_main_v39_apply, val_main_v37_apply, val_main_v35_apply, val_main_v38_apply, val_main_v36_apply, at_anchor_label,
    at_key_label]
  rfl

theorem neg_eq (x1 : X1) (i j : Fin 8192) : val_main_v44 (F := Ideal) x1 (ix2 i j) = neg x1 i j := by
  rw [val_main_v44_apply, same_eq]
  exact not_eq_xor_one _

/-! ## The hardest positive -/

/-- The distances of the positives, the negative infinity elsewhere. -/
theorem pos_masked_eq (x0 : X0) (x1 : X1) (i j : Fin 8192) :
    val_main_v42 (F := Ideal) x0 x1 (ix2 i j)
      = Scalar.select (IntOp.andi (same x1 i j) (nz x0 i j)) (dist x0 i j) (⊥ : EReal) := by
  rw [val_main_v42_apply, val_main_v40_apply, same_eq, nz_eq, dist_eq, val_main_call2_v0_apply, val_main_v41_apply]
  exact congrArg (Scalar.select _ _) negPosInf

theorem hp_eq (x0 : X0) (x1 : X1) (i : Fin 8192) : val_main_v43 (F := Ideal) x0 x1 (ix1 i) = hp x0 x1 i := by
  unfold val_main_v43
  refine (reduce_row _ _ _ i).trans ?_
  unfold hp
  rw [show (fun j => val_main_v42 (F := Ideal) x0 x1 (ix2 i j))
      = fun j => Scalar.select (IntOp.andi (same x1 i j) (nz x0 i j)) (dist x0 i j) (⊥ : EReal) from
    funext fun j => pos_masked_eq x0 x1 i j]
  exact congrArg (fun b => Finset.fold max b _ _) negInf

/-! ## The negatives -/

theorem semi_eq (x0 : X0) (x1 : X1) (i j : Fin 8192) : val_main_v48 (F := Ideal) x0 x1 (ix2 i j) = semi x0 x1 i j := by
  rw [val_main_v48_apply, neg_eq, val_main_v47_apply, dist_eq, val_main_v46_apply, val_main_v45_apply, at_anchor_max, hp_eq]
  rfl

theorem semi_masked_eq (x0 : X0) (x1 : X1) (i j : Fin 8192) :
    val_main_v49 (F := Ideal) x0 x1 (ix2 i j) = Scalar.select (semi x0 x1 i j) (dist x0 i j) (⊤ : EReal) := by
  rw [val_main_v49_apply, semi_eq, dist_eq, val_main_call3_v0_apply]
  exact congrArg (Scalar.select _ _) posInf

theorem hs_eq (x0 : X0) (x1 : X1) (i : Fin 8192) : val_main_v50 (F := Ideal) x0 x1 (ix1 i) = hs x0 x1 i := by
  unfold val_main_v50
  refine (reduce_row _ _ _ i).trans ?_
  unfold hs
  rw [show (fun j => val_main_v49 (F := Ideal) x0 x1 (ix2 i j))
      = fun j => Scalar.select (semi x0 x1 i j) (dist x0 i j) (⊤ : EReal) from
    funext fun j => semi_masked_eq x0 x1 i j]
  exact congrArg (fun b => Finset.fold min b _ _) posInf

theorem neg_masked_eq (x0 : X0) (x1 : X1) (i j : Fin 8192) :
    val_main_v51 (F := Ideal) x0 x1 (ix2 i j) = Scalar.select (neg x1 i j) (dist x0 i j) (⊤ : EReal) := by
  rw [val_main_v51_apply, neg_eq, dist_eq, val_main_call4_v0_apply]
  exact congrArg (Scalar.select _ _) posInf

theorem ha_eq (x0 : X0) (x1 : X1) (i : Fin 8192) : val_main_v52 (F := Ideal) x0 x1 (ix1 i) = ha x0 x1 i := by
  unfold val_main_v52
  refine (reduce_row _ _ _ i).trans ?_
  unfold ha
  rw [show (fun j => val_main_v51 (F := Ideal) x0 x1 (ix2 i j))
      = fun j => Scalar.select (neg x1 i j) (dist x0 i j) (⊤ : EReal) from
    funext fun j => neg_masked_eq x0 x1 i j]
  exact congrArg (fun b => Finset.fold min b _ _) posInf

/-- Whether the row has a semi-hard negative at all: the disjunction over the columns. -/
theorem any_semi_eq (x0 : X0) (x1 : X1) (i : Fin 8192) :
    val_main_v53 (F := Ideal) x0 x1 (ix1 i) = (Finset.univ : Finset (Fin 8192)).fold IntOp.ori 0#1 fun j => semi x0 x1 i j := by
  unfold val_main_v53
  refine (reduce_row _ _ _ i).trans ?_
  rw [show (fun j => val_main_v48 (F := Ideal) x0 x1 (ix2 i j)) = fun j => semi x0 x1 i j from
    funext fun j => semi_eq x0 x1 i j]
  rfl

/-! ## The loss of a row -/

theorem loss_eq (x0 : (⟨Cert.ReferenceIdeal.S8192x512, .f32⟩ : BufTy).Contents (Elt Ideal))
    (x1 : (⟨Cert.ReferenceIdeal.S8192, .i32⟩ : BufTy).Contents (Elt Ideal)) :
    Cert.ReferenceIdeal.ReadP.val_main_v58 x0 x1 = fun idx => Cert.Triplet.lossAny x0 x1 (idx 0) := by
  funext idx
  obtain ⟨i, rfl⟩ : ∃ i : Fin 8192, idx = ix1 i := ⟨idx 0, eq_ix1 idx⟩
  rw [val_main_v58_apply, val_main_v57_apply, val_main_v55_apply, val_main_v54_apply, hp_eq, any_semi_eq, hs_eq, ha_eq,
    val_main_v56_apply, val_main_call6_v0_apply]
  rfl

end Cert.Triplet.Ref

end
-- ==== Proof.RefClaims.lean ====
/-
  The reference's two claims. It runs and leaves its arguments as they were; and what it returns is the mean over the
  rows of the specification's loss: the rows' losses summed from the zero word, the sum divided by the word 8192.
  The run is the library's run of a straight line of host operations over the program's operation list; what the
  operations leave in the result buffer is the last stage of the staged reading, whatever the buffers held before.
-/
import proofs.«120611_j52630529245412_2_alg».proof.Defs
import proofs.«120611_j52630529245412_2_alg».proof.Proof.Gen.Pre_finite_inputs
import proofs.«120611_j52630529245412_2_alg».proof.Proof.RunP
import proofs.«120611_j52630529245412_2_alg».proof.Proof.RefSide
import Idealize.ShloMosaic.Lib.StableHlo.Run

noncomputable section

namespace Cert.Triplet.Ref

open Idealize.ShloMosaic Idealize.SL.Sem Idealize.ShloMosaic.TcCoe Idealize.ShloMosaic.StableHlo Idealize.ShloMosaic.ValueIdx
  Cert.ReferenceIdeal Cert.ReferenceIdeal.Gen

/-- The reference's last four operations on the rows' losses: their sum, taken from the zero word, over the word 8192. -/
def tailR (v : FVec Ideal Cert.ReferenceIdeal.S8192 .f32) : FVec Ideal Cert.ReferenceIdeal.S_ .f32 :=
  Host.divf (Host.reduceAdd v (constant (F := Ideal) S_ .f32 0x00000000#32) reducesTo_S8192_S_d0 h_S_)
    (constant (F := Ideal) S_ .f32 0x46000000#32)

/-- The last stage is that tail of the stage holding the rows' losses. -/
theorem tail_eq (x0 : X0) (x1 : X1) :
    ReadP.val_main_v60 (F := Ideal) x0 x1 = tailR (ReadP.val_main_v58 (F := Ideal) x0 x1) := rfl

/-! ## The two index columns side by side

The list of the two columns sits under a proof about that very list, which keeps a rewriting pass out of it; as a
function of the two columns alone it is an ordinary application. -/

/-- Two columns side by side, as a function of the two columns. -/
def catCols {α : Type} (a b : S8192x1.Idx → α) : S8192x2.Idx → α :=
  concatenate S8192x2 1 [⟨S8192x1, a⟩, ⟨S8192x1, b⟩] concatenates_S8192x1_S8192x1_S8192x2_d1

theorem catCols_eq {α : Type} (a b : S8192x1.Idx → α) (h : Shape.Concatenates [S8192x1, S8192x1] S8192x2 1) :
    concatenate S8192x2 1 [⟨S8192x1, a⟩, ⟨S8192x1, b⟩] h = catCols a b := rfl

/-! ## What the operations leave, from any contents -/

set_option maxRecDepth 8192 in
set_option maxHeartbeats 36400000 in
/-- In the result buffer: the last stage, at what the two argument buffers held. Both sides are brought to one
    spelling — the operations' results composed on the left, the stages' definitions opened on the right — and
    are then the same term. -/
theorem after_result (V : Valuation τ sig (Elt Ideal)) :
    after (ValueP.ops (F := Ideal)) V (Proc.devRef .tc main_v60)
      = ReadP.val_main_v60 (F := Ideal) (V (Proc.devRef .tc main_arg0)) (V (Proc.devRef .tc main_arg1)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', catCols_eq, cast_eq]
  simp only [ReadP.val_main_v0, ReadP.val_main_cst, ReadP.val_main_v1, ReadP.val_main_v2, ReadP.val_main_v3, ReadP.val_main_v4, ReadP.val_main_v5, ReadP.val_main_v6, ReadP.val_main_v7, ReadP.val_main_v8, ReadP.val_main_cst_0, ReadP.val_main_v9, ReadP.val_main_v10, ReadP.val_main_v11, ReadP.val_main_cst_1, ReadP.val_main_v12, ReadP.val_main_v13, ReadP.val_main_v14, ReadP.val_main_c, ReadP.val_main_v15, ReadP.val_main_v16, ReadP.val_main_c_2, ReadP.val_main_v17, ReadP.val_main_v18, ReadP.val_main_v19, ReadP.val_main_c_3, ReadP.val_main_v20, ReadP.val_main_v21, ReadP.val_main_c_4, ReadP.val_main_v22, ReadP.val_main_v23, ReadP.val_main_v24, ReadP.val_main_v25, ReadP.val_main_v26, ReadP.val_main_v27, ReadP.val_main_cst_5, ReadP.val_main_v28, ReadP.val_main_v29, ReadP.val_main_cst_6, ReadP.val_main_v30, ReadP.val_main_v31, ReadP.val_main_cst_7, ReadP.val_main_call0_v0, ReadP.val_main_call0_v1, ReadP.val_main_v32, ReadP.val_main_v33, ReadP.val_main_cst_8, ReadP.val_main_call1_v0, ReadP.val_main_call1_v1, ReadP.val_main_v34, ReadP.val_main_v35, ReadP.val_main_v36, ReadP.val_main_v37, ReadP.val_main_v38, ReadP.val_main_v39, ReadP.val_main_v40, ReadP.val_main_cst_9, ReadP.val_main_v41, ReadP.val_main_call2_v0, ReadP.val_main_v42, ReadP.val_main_cst_10, ReadP.val_main_v43, ReadP.val_main_v44, ReadP.val_main_v45, ReadP.val_main_v46, ReadP.val_main_v47, ReadP.val_main_v48, ReadP.val_main_cst_11, ReadP.val_main_call3_v0, ReadP.val_main_v49, ReadP.val_main_cst_12, ReadP.val_main_v50, ReadP.val_main_cst_13, ReadP.val_main_call4_v0, ReadP.val_main_v51, ReadP.val_main_cst_14, ReadP.val_main_v52, ReadP.val_main_c_15, ReadP.val_main_v53, ReadP.val_main_v54, ReadP.val_main_v55, ReadP.val_main_cst_16, ReadP.val_main_v56, ReadP.val_main_v57, ReadP.val_main_call6_cst, ReadP.val_main_call6_v0, ReadP.val_main_v58, ReadP.val_main_cst_17, ReadP.val_main_v59, ReadP.val_main_cst_18, ReadP.val_main_v60, catCols_eq]

set_option maxRecDepth 8192 in
/-- No operation writes an argument buffer. -/
theorem after_arg0 (V : Valuation τ sig (Elt Ideal)) :
    after (ValueP.ops (F := Ideal)) V (Proc.devRef .tc main_arg0) = V (Proc.devRef .tc main_arg0) := by
  after_results_simp

set_option maxRecDepth 8192 in
theorem after_arg1 (V : Valuation τ sig (Elt Ideal)) :
    after (ValueP.ops (F := Ideal)) V (Proc.devRef .tc main_arg1) = V (Proc.devRef .tc main_arg1) := by
  after_results_simp

/-! ## The run -/

set_option maxRecDepth 8192 in
set_option maxHeartbeats 36400000 in
/-- Every weakly fair execution of the reference terminates with the result buffer at the last stage of the argument
    buffers' launch contents, and the argument buffers unchanged. -/
theorem ref_run_staged (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v60)
        = ReadP.val_main_v60 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v60).trans (after_result (launchContents m c)),
      (h c main_arg0).trans (after_arg0 (launchContents m c)),
      (h c main_arg1).trans (after_arg1 (launchContents m c))⟩)
    (run_seq ValueP.scopedRefs_eq ValueP.scopedSems_eq defs main (fun _ => ValueP.ops) ValueP.main_eq
      (fun _ => ValueP.ops_sub) m g)

/-- The reference runs and its arguments end unchanged: its run with the result dropped. -/
theorem frame_ri : Cert.frame_ReferenceIdeal :=
  fun m g _ => (θ_run Cert.ReferenceIdeal.defs _ _).mono (fun _ h c => (h c).2) (ref_run_staged m g)

/-- The reference's run with its result named by the specification: the mean of the rows' losses. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60)
            = tailR (fun idx => Cert.Triplet.lossAny (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (idx 0))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((tail_eq _ _).trans (congrArg tailR (loss_eq _ _))), (h c).2⟩)
    (ref_run_staged m' g')

end Cert.Triplet.Ref

end
-- ==== Proof.Finite.lean ====
/-
  The precondition read back: when "every entry of the embedding matrix has absolute value below +∞" holds as a
  whole-array conjunction, every single entry is a real number, i.e. neither +∞ nor −∞.

  The conjunction over all entries is 1 only if each compared entry gives 1; at one entry the comparison says
  max x (−x) < +∞, which fails at x = +∞ (the maximum is +∞) and at x = −∞ (its negation is +∞).
-/
import proofs.«120611_j52630529245412_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Triplet

open Idealize.ShloMosaic Idealize.ShloMosaic.ValueIdx

/-- The scalar shape has exactly one index. -/
instance subsingleton_scalar_idx : Subsingleton Cert.Pre_finite_inputs.S_.Idx :=
  ⟨fun _ _ => funext fun d => d.elim0⟩

/-- The f32 word with all exponent bits set and an empty fraction denotes +∞. -/
theorem ofBits_inf_f32 : Ideal.ofBits .f32 0x7F800000#32 = ⊤ := by
  simp [Ideal.ofBits, Ideal.ieee]

/-- The one-bit word of a truth value is 1 exactly when the value is true. -/
theorem Finite.ofBool_eq_one_iff (b : Bool) : BitVec.ofBool b = 1#1 ↔ b = true := by cases b <;> decide

/-- The comparison "less than" gives the word 1 exactly when the order relation holds. -/
theorem Finite.cmp_olt_eq_one (a b : EReal) : Ideal.cmp .olt a b = 1#1 ↔ a < b := by
  show BitVec.ofBool (decide (a < b)) = 1#1 ↔ a < b
  rw [Finite.ofBool_eq_one_iff, decide_eq_true_iff]

/-- An extended real whose absolute value max x (−x) lies below +∞ is a real number. -/
theorem ne_top_ne_bot_of_abs_lt_top (a : EReal) (h : max a (-a) < ⊤) : a ≠ ⊤ ∧ a ≠ ⊥ := by
  induction a using EReal.rec with
  | bot => simp at h
  | top => simp at h
  | coe r => exact ⟨EReal.coe_ne_top r, EReal.coe_ne_bot r⟩

/-- If the precondition holds, every entry of the embedding matrix is a real number. -/
theorem finite_of_pre [Cert.Pre_finite_inputs.Facts]
    (x0 : FVec Ideal Cert.Pre_finite_inputs.S8192x512 .f32) (x1 : IVec Cert.Pre_finite_inputs.S8192 32)
    (h : Cert.Pre_finite_inputs.fn (F := Ideal) x0 x1 = fun _ => 1#1) : ∀ idx, x0 idx ≠ ⊤ ∧ x0 idx ≠ ⊥ := by
  intro idx
  have h0 := congrFun h ValueIdx.ix0
  dsimp only [Cert.Pre_finite_inputs.fn] at h0
  have h1 := Host.reduce_andi_all _ _ _ _ _ h0 idx
  -- at one entry the compared pair is max x (−x) against the word of +∞
  have h2 : Ideal.cmp .olt (max (x0 idx) (-(x0 idx))) (Ideal.ofBits .f32 0x7F800000#32) = 1#1 := h1
  rw [ofBits_inf_f32] at h2
  have h3 : max (x0 idx) (-(x0 idx)) < ⊤ := (Finite.cmp_olt_eq_one _ _).1 h2
  exact ne_top_ne_bot_of_abs_lt_top _ h3

end Cert.Triplet

end
-- ==== Proof.lean ====
/-
  The certificate of the triplet-loss kernel against its reference, over the extended reals.

  Both programs compute, for each of 8192 anchors, the batch-hard / semi-hard triplet loss (Proof/Spec.lean) and return the
  mean of the 8192 losses. The kernel sweeps the keys in tiles with running extrema and reads "a semi-hard negative
  exists" off the running minimum having left +∞; the reference takes whole-row extrema and a disjunction. The two
  readings agree because every distance is a real number when every embedding entry is — the one place the
  precondition is used. The kernel's two sentinels ±3·10³⁸ denote ±∞ at the ideal instance (the seven ledger entries).

  Frames: the kernel program (at both instances) runs as its region followed by four host operations (Proof/KRun.lean,
  Proof/KIRun.lean); the reference is a straight line of host operations.
-/
import proofs.«120611_j52630529245412_2_alg».proof.Defs
import proofs.«120611_j52630529245412_2_alg».proof.Proof.Gen.Kernel
import proofs.«120611_j52630529245412_2_alg».proof.Proof.Gen.KernelIdeal
import proofs.«120611_j52630529245412_2_alg».proof.Proof.Gen.ReferenceIdeal
import proofs.«120611_j52630529245412_2_alg».proof.Proof.Gen.Pre_finite_inputs
import proofs.«120611_j52630529245412_2_alg».proof.Proof.KRun
import proofs.«120611_j52630529245412_2_alg».proof.Proof.KIValue
import proofs.«120611_j52630529245412_2_alg».proof.Proof.RefClaims
import proofs.«120611_j52630529245412_2_alg».proof.Proof.LossLaws
import proofs.«120611_j52630529245412_2_alg».proof.Proof.Finite
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The seven ledger entries: each sentinel word is the infinity the certificate's table gives its name. -/
theorem preserves : Cert.preserves_Kernel_KernelIdeal :=
  ⟨IdealRules.named_const.statement Cert.KernelIdeal.κ "neg_big" .f32 0xFF61B1E6#32 ⊥ rfl,
   IdealRules.named_const.statement Cert.KernelIdeal.κ "neg_big" .f32 0xFF61B1E6#32 ⊥ rfl,
   IdealRules.named_const.statement Cert.KernelIdeal.κ "pos_big" .f32 0x7F61B1E6#32 ⊤ rfl,
   IdealRules.named_const.statement Cert.KernelIdeal.κ "pos_big" .f32 0x7F61B1E6#32 ⊤ rfl,
   IdealRules.named_const.statement Cert.KernelIdeal.κ "pos_big" .f32 0x7F61B1E6#32 ⊤ rfl,
   IdealRules.named_const.statement Cert.KernelIdeal.κ "pos_big" .f32 0x7F61B1E6#32 ⊤ rfl,
   IdealRules.named_const.statement Cert.KernelIdeal.κ "pos_big" .f32 0x7F61B1E6#32 ⊤ rfl⟩

/-- Both programs end at the mean of the same 8192 losses: the kernel's with the running-minimum reading, the
    reference's with the disjunction, equal on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.meanOf (F := Ideal) (Cert.KernelIdeal.Hand.lossArr m c), Cert.KernelIdeal.Hand.kernel_run m ρ, ?_⟩
  refine (θ_run Cert.ReferenceIdeal.defs _ _).mono (fun r h c => ⟨(h c).1.trans ?_, (h c).2⟩) (Cert.Triplet.Ref.ref_run m' ρ')
  have hfin := Cert.Triplet.finite_of_pre _ _ (hpre c)
  have hrow : Cert.KernelIdeal.Hand.lossArr m c
      = fun idx => Cert.Triplet.lossAny (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (idx 0) :=
    funext fun idx => Cert.Triplet.lossMin_eq_lossAny _ _ hfin (idx 0)
  rw [(hagree c).1, (hagree c).2]
  show _ = Cert.KernelIdeal.Hand.meanOf (F := Ideal) (Cert.KernelIdeal.Hand.lossArr m c)
  rw [hrow]
  rfl

theorem claim : Cert.Claim :=
  ⟨Cert.Kernel.Gen.facts, Cert.KernelIdeal.Gen.facts, Cert.ReferenceIdeal.Gen.facts, Cert.Pre_finite_inputs.Gen.facts,
    frame_k, frame_ki, Cert.Triplet.Ref.frame_ri, preserves, algebraic⟩

end Cert.Proof

end
